-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096x27 : Shape := ⟨3, ![256, 4096, 27]⟩
abbrev S27x7 : Shape := ⟨2, ![27, 7]⟩
abbrev S8x27 : Shape := ⟨2, ![8, 27]⟩
abbrev S8 : Shape := ⟨1, ![8]⟩
abbrev S8x8 : Shape := ⟨2, ![8, 8]⟩
abbrev S7x8 : Shape := ⟨2, ![7, 8]⟩
abbrev S7 : Shape := ⟨1, ![7]⟩
abbrev S7x7 : Shape := ⟨2, ![7, 7]⟩
abbrev S_ : Shape := ⟨0, ![]⟩

class Facts : Prop where
  bcast_S_S256x4096x27 : S_.BroadcastsInDim S256x4096x27 (![] : Fin 0 → Fin S256x4096x27.rank)
  reducesTo_S256x4096x27_S_d0_1_2 : S256x4096x27.ReducesTo [0, 1, 2] S_
  h_S_ : 0 < S_.numel
  bcast_S_S27x7 : S_.BroadcastsInDim S27x7 (![] : Fin 0 → Fin S27x7.rank)
  reducesTo_S27x7_S_d0_1 : S27x7.ReducesTo [0, 1] S_
  bcast_S_S8x27 : S_.BroadcastsInDim S8x27 (![] : Fin 0 → Fin S8x27.rank)
  reducesTo_S8x27_S_d0_1 : S8x27.ReducesTo [0, 1] S_
  bcast_S_S8 : S_.BroadcastsInDim S8 (![] : Fin 0 → Fin S8.rank)
  reducesTo_S8_S_d0 : S8.ReducesTo [0] S_
  bcast_S_S8x8 : S_.BroadcastsInDim S8x8 (![] : Fin 0 → Fin S8x8.rank)
  reducesTo_S8x8_S_d0_1 : S8x8.ReducesTo [0, 1] S_
  bcast_S_S7x8 : S_.BroadcastsInDim S7x8 (![] : Fin 0 → Fin S7x8.rank)
  reducesTo_S7x8_S_d0_1 : S7x8.ReducesTo [0, 1] S_
  bcast_S_S7 : S_.BroadcastsInDim S7 (![] : Fin 0 → Fin S7.rank)
  reducesTo_S7_S_d0 : S7.ReducesTo [0] S_
  bcast_S_S7x7 : S_.BroadcastsInDim S7x7 (![] : Fin 0 → Fin S7x7.rank)
  reducesTo_S7x7_S_d0_1 : S7x7.ReducesTo [0, 1] S_

variable [Facts]

def fn_part3 {F : FTy → Type} [FloatOps F] (main_arg11 : FVec F S7 .f32) (main_v48 : IVec S_ 1) (main_v49 : FVec F S7x7 .f32) (main_v50 : FVec F S7x7 .f32) : IVec S_ 1 :=
  let main_v51 : IVec S7x7 1 := cmpf .olt main_v49 main_v50
  let main_c_19 : IVec S_ 1 := constantI S_ 1 1#1
  let main_v52 : IVec S_ 1 := (fun x v => Host.reduce IntOp.andi x v reducesTo_S7x7_S_d0_1 h_S_) main_v51 main_c_19
  let main_v53 : IVec S_ 1 := andi main_v48 main_v52
  let main_v54 : FVec F S7 .f32 := Host.absf main_arg11
  let main_cst_20 : FVec F S_ .f32 := constant S_ .f32 0x7F800000#32
  let main_v55 : FVec F S7 .f32 := broadcastInDim S7 ![] bcast_S_S7 main_cst_20
  let main_v56 : IVec S7 1 := cmpf .olt main_v54 main_v55
  let main_c_21 : IVec S_ 1 := constantI S_ 1 1#1
  let main_v57 : IVec S_ 1 := (fun x v => Host.reduce IntOp.andi x v reducesTo_S7_S_d0 h_S_) main_v56 main_c_21
  let main_v58 : IVec S_ 1 := andi main_v53 main_v57
  main_v58

def fn_part2 {F : FTy → Type} [FloatOps F] (main_arg7 : FVec F S8 .f32) (main_arg8 : FVec F S7x8 .f32) (main_arg9 : FVec F S7 .f32) (main_arg10 : FVec F S7x7 .f32) (main_arg11 : FVec F S7 .f32) (main_v33 : IVec S_ 1) : IVec S_ 1 :=
  let main_v34 : FVec F S8 .f32 := Host.absf main_arg7
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_v39 : FVec F S7x8 .f32 := Host.absf main_arg8
  let main_cst_14 : FVec F S_ .f32 := constant S_ .f32 0x7F800000#32
  let main_v40 : FVec F S7x8 .f32 := broadcastInDim S7x8 ![] bcast_S_S7x8 main_cst_14
  let main_v41 : IVec S7x8 1 := cmpf .olt main_v39 main_v40
  let main_c_15 : IVec S_ 1 := constantI S_ 1 1#1
  let main_v42 : IVec S_ 1 := (fun x v => Host.reduce IntOp.andi x v reducesTo_S7x8_S_d0_1 h_S_) main_v41 main_c_15
  let main_v43 : IVec S_ 1 := andi main_v38 main_v42
  let main_v44 : FVec F S7 .f32 := Host.absf main_arg9
  let main_cst_16 : FVec F S_ .f32 := constant S_ .f32 0x7F800000#32
  let main_v45 : FVec F S7 .f32 := broadcastInDim S7 ![] bcast_S_S7 main_cst_16
  let main_v46 : IVec S7 1 := cmpf .olt main_v44 main_v45
  let main_c_17 : IVec S_ 1 := constantI S_ 1 1#1
  let main_v47 : IVec S_ 1 := (fun x v => Host.reduce IntOp.andi x v reducesTo_S7_S_d0 h_S_) main_v46 main_c_17
  let main_v48 : IVec S_ 1 := andi main_v43 main_v47
  let main_v49 : FVec F S7x7 .f32 := Host.absf main_arg10
  let main_cst_18 : FVec F S_ .f32 := constant S_ .f32 0x7F800000#32
  let main_v50 : FVec F S7x7 .f32 := broadcastInDim S7x7 ![] bcast_S_S7x7 main_cst_18
  fn_part3 (F := F) main_arg11 main_v48 main_v49 main_v50

def fn_part1 {F : FTy → Type} [FloatOps F] (main_arg4 : FVec F S8x8 .f32) (main_arg5 : FVec F S8 .f32) (main_arg6 : FVec F S8x8 .f32) (main_arg7 : FVec F S8 .f32) (main_arg8 : FVec F S7x8 .f32) (main_arg9 : FVec F S7 .f32) (main_arg10 : FVec F S7x7 .f32) (main_arg11 : FVec F S7 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S8x8 .f32 := Host.absf main_arg4
  let main_cst_6 : FVec F S_ .f32 := constant S_ .f32 0x7F800000#32
  let main_v20 : FVec F S8x8 .f32 := broadcastInDim S8x8 ![] bcast_S_S8x8 main_cst_6
  let main_v21 : IVec S8x8 1 := cmpf .olt main_v19 main_v20
  let main_c_7 : IVec S_ 1 := constantI S_ 1 1#1
  let main_v22 : IVec S_ 1 := (fun x v => Host.reduce IntOp.andi x v reducesTo_S8x8_S_d0_1 h_S_) main_v21 main_c_7
  let main_v23 : IVec S_ 1 := andi main_v18 main_v22
  let main_v24 : FVec F S8 .f32 := Host.absf main_arg5
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S8x8 .f32 := Host.absf main_arg6
  let main_cst_10 : FVec F S_ .f32 := constant S_ .f32 0x7F800000#32
  let main_v30 : FVec F S8x8 .f32 := broadcastInDim S8x8 ![] bcast_S_S8x8 main_cst_10
  let main_v31 : IVec S8x8 1 := cmpf .olt main_v29 main_v30
  let main_c_11 : IVec S_ 1 := constantI S_ 1 1#1
  let main_v32 : IVec S_ 1 := (fun x v => Host.reduce IntOp.andi x v reducesTo_S8x8_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S256x4096x27 .f32) (main_arg1 : FVec F S27x7 .f32) (main_arg2 : FVec F S8x27 .f32) (main_arg3 : FVec F S8 .f32) (main_arg4 : FVec F S8x8 .f32) (main_arg5 : FVec F S8 .f32) (main_arg6 : FVec F S8x8 .f32) (main_arg7 : FVec F S8 .f32) (main_arg8 : FVec F S7x8 .f32) (main_arg9 : FVec F S7 .f32) (main_arg10 : FVec F S7x7 .f32) (main_arg11 : FVec F S7 .f32) : IVec S_ 1 :=
  let main_v0 : FVec F S256x4096x27 .f32 := Host.absf main_arg0
  let main_cst : FVec F S_ .f32 := constant S_ .f32 0x7F800000#32
  let main_v1 : FVec F S256x4096x27 .f32 := broadcastInDim S256x4096x27 ![] bcast_S_S256x4096x27 main_cst
  let main_v2 : IVec S256x4096x27 1 := cmpf .olt main_v0 main_v1
  let main_c : IVec S_ 1 := constantI S_ 1 1#1
  let main_v3 : IVec S_ 1 := (fun x v => Host.reduce IntOp.andi x v reducesTo_S256x4096x27_S_d0_1_2 h_S_) main_v2 main_c
  let main_v4 : FVec F S27x7 .f32 := Host.absf main_arg1
  let main_cst_0 : FVec F S_ .f32 := constant S_ .f32 0x7F800000#32
  let main_v5 : FVec F S27x7 .f32 := broadcastInDim S27x7 ![] bcast_S_S27x7 main_cst_0
  let main_v6 : IVec S27x7 1 := cmpf .olt main_v4 main_v5
  let main_c_1 : IVec S_ 1 := constantI S_ 1 1#1
  let main_v7 : IVec S_ 1 := (fun x v => Host.reduce IntOp.andi x v reducesTo_S27x7_S_d0_1 h_S_) main_v6 main_c_1
  let main_v8 : IVec S_ 1 := andi main_v3 main_v7
  let main_v9 : FVec F S8x27 .f32 := Host.absf main_arg2
  let main_cst_2 : FVec F S_ .f32 := constant S_ .f32 0x7F800000#32
  let main_v10 : FVec F S8x27 .f32 := broadcastInDim S8x27 ![] bcast_S_S8x27 main_cst_2
  let main_v11 : IVec S8x27 1 := cmpf .olt main_v9 main_v10
  let main_c_3 : IVec S_ 1 := constantI S_ 1 1#1
  let main_v12 : IVec S_ 1 := (fun x v => Host.reduce IntOp.andi x v reducesTo_S8x27_S_d0_1 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg4 main_arg5 main_arg6 main_arg7 main_arg8 main_arg9 main_arg10 main_arg11 main_v13 main_v16
-- ==== Kernel.lean ====
abbrev S256x4096x27 : Shape := ⟨3, ![256, 4096, 27]⟩
abbrev S27x7 : Shape := ⟨2, ![27, 7]⟩
abbrev S8x27 : Shape := ⟨2, ![8, 27]⟩
abbrev S8 : Shape := ⟨1, ![8]⟩
abbrev S8x8 : Shape := ⟨2, ![8, 8]⟩
abbrev S7x8 : Shape := ⟨2, ![7, 8]⟩
abbrev S7 : Shape := ⟨1, ![7]⟩
abbrev S7x7 : Shape := ⟨2, ![7, 7]⟩
abbrev S1048576x27 : Shape := ⟨2, ![1048576, 27]⟩
abbrev S65536x27 : Shape := ⟨2, ![65536, 27]⟩
abbrev S27x8 : Shape := ⟨2, ![27, 8]⟩
abbrev S65536x8 : Shape := ⟨2, ![65536, 8]⟩
abbrev S1x8 : Shape := ⟨2, ![1, 8]⟩
abbrev S8x7 : Shape := ⟨2, ![8, 7]⟩
abbrev S65536x7 : Shape := ⟨2, ![65536, 7]⟩
abbrev S1x7 : Shape := ⟨2, ![1, 7]⟩
abbrev S7x27 : Shape := ⟨2, ![7, 27]⟩

abbrev nBuf : Space → Nat
  | .hbm => 15
  | .vmem => 15
  | .smem => 0
  | _ => 0

abbrev bufTy : (tb : Table) → Fin (tcTables nBuf tb) → BufTy
  | .hbm, ⟨0, _⟩ => ⟨S256x4096x27, .f32⟩
  | .hbm, ⟨1, _⟩ => ⟨S27x7, .f32⟩
  | .hbm, ⟨2, _⟩ => ⟨S8x27, .f32⟩
  | .hbm, ⟨3, _⟩ => ⟨S8, .f32⟩
  | .hbm, ⟨4, _⟩ => ⟨S8x8, .f32⟩
  | .hbm, ⟨5, _⟩ => ⟨S8, .f32⟩
  | .hbm, ⟨6, _⟩ => ⟨S8x8, .f32⟩
  | .hbm, ⟨7, _⟩ => ⟨S8, .f32⟩
  | .hbm, ⟨8, _⟩ => ⟨S7x8, .f32⟩
  | .hbm, ⟨9, _⟩ => ⟨S7, .f32⟩
  | .hbm, ⟨10, _⟩ => ⟨S7x7, .f32⟩
  | .hbm, ⟨11, _⟩ => ⟨S7, .f32⟩
  | .hbm, ⟨12, _⟩ => ⟨S1048576x27, .f32⟩
  | .hbm, ⟨13, _⟩ => ⟨S1048576x27, .f32⟩
  | .hbm, ⟨14, _⟩ => ⟨S256x4096x27, .f32⟩
  | .local _ .vmem, ⟨0, _⟩ => ⟨S65536x27, .f32⟩
  | .local _ .vmem, ⟨1, _⟩ => ⟨S65536x27, .f32⟩
  | .local _ .vmem, ⟨2, _⟩ => ⟨S27x7, .f32⟩
  | .local _ .vmem, ⟨3, _⟩ => ⟨S8x27, .f32⟩
  | .local _ .vmem, ⟨4, _⟩ => ⟨S8, .f32⟩
  | .local _ .vmem, ⟨5, _⟩ => ⟨S8x8, .f32⟩
  | .local _ .vmem, ⟨6, _⟩ => ⟨S8, .f32⟩
  | .local _ .vmem, ⟨7, _⟩ => ⟨S8x8, .f32⟩
  | .local _ .vmem, ⟨8, _⟩ => ⟨S8, .f32⟩
  | .local _ .vmem, ⟨9, _⟩ => ⟨S7x8, .f32⟩
  | .local _ .vmem, ⟨10, _⟩ => ⟨S7, .f32⟩
  | .local _ .vmem, ⟨11, _⟩ => ⟨S7x7, .f32⟩
  | .local _ .vmem, ⟨12, _⟩ => ⟨S7, .f32⟩
  | .local _ .vmem, ⟨13, _⟩ => ⟨S65536x27, .f32⟩
  | .local _ .vmem, ⟨14, _⟩ => ⟨S65536x27, .f32⟩
  | _, _ => ⟨S256x4096x27, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S65536x27 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S27x7 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x27 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S7x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S7 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S7x7 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S7 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S65536x27 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S256x4096x27_S1048576x27 : S256x4096x27.ShapeCasts S1048576x27
  inb_S65536x27_S65536x27_0_0 : ∀ a, (![0, 0] : Fin 2 → Nat) a + S65536x27.size a ≤ S65536x27.size a
  h_S65536x27 : 0 < S65536x27.numel
  shapeCasts_S65536x27_S65536x27 : S65536x27.ShapeCasts S65536x27
  inb_S8x27_S8x27_0_0 : ∀ a, (![0, 0] : Fin 2 → Nat) a + S8x27.size a ≤ S8x27.size a
  h_S8x27 : 0 < S8x27.numel
  transposes_S8x27_p1_0_S27x8 : S8x27.Transposes [1, 0] S27x8
  inb_S8_S8_0 : ∀ a, (![0] : Fin 1 → Nat) a + S8.size a ≤ S8.size a
  h_S8 : 0 < S8.numel
  shapeCasts_S8_S1x8 : S8.ShapeCasts S1x8
  broadcasts_S1x8_S65536x8 : S1x8.Broadcasts S65536x8
  inb_S8x8_S8x8_0_0 : ∀ a, (![0, 0] : Fin 2 → Nat) a + S8x8.size a ≤ S8x8.size a
  h_S8x8 : 0 < S8x8.numel
  transposes_S8x8_p1_0_S8x8 : S8x8.Transposes [1, 0] S8x8
  inb_S7x8_S7x8_0_0 : ∀ a, (![0, 0] : Fin 2 → Nat) a + S7x8.size a ≤ S7x8.size a
  h_S7x8 : 0 < S7x8.numel
  transposes_S7x8_p1_0_S8x7 : S7x8.Transposes [1, 0] S8x7
  inb_S7_S7_0 : ∀ a, (![0] : Fin 1 → Nat) a + S7.size a ≤ S7.size a
  h_S7 : 0 < S7.numel
  shapeCasts_S7_S1x7 : S7.ShapeCasts S1x7
  broadcasts_S1x7_S65536x7 : S1x7.Broadcasts S65536x7
  inb_S7x7_S7x7_0_0 : ∀ a, (![0, 0] : Fin 2 → Nat) a + S7x7.size a ≤ S7x7.size a
  h_S7x7 : 0 < S7x7.numel
  transposes_S7x7_p1_0_S7x7 : S7x7.Transposes [1, 0] S7x7
  inb_S27x7_S27x7_0_0 : ∀ a, (![0, 0] : Fin 2 → Nat) a + S27x7.size a ≤ S27x7.size a
  h_S27x7 : 0 < S27x7.numel
  transposes_S27x7_p1_0_S7x27 : S27x7.Transposes [1, 0] S7x27
  shapeCasts_S1048576x27_S256x4096x27 : S1048576x27.ShapeCasts S256x4096x27
  dot_S65536x27_S27x8_S65536x8_1_0_0_1_n_n_wf : DotDims.WF S65536x27 S27x8 S65536x8 [1] [0] [0] [1] [] []
  dot_S65536x8_S8x8_S65536x8_1_0_0_1_n_n_wf : DotDims.WF S65536x8 S8x8 S65536x8 [1] [0] [0] [1] [] []
  dot_S65536x8_S8x7_S65536x7_1_0_0_1_n_n_wf : DotDims.WF S65536x8 S8x7 S65536x7 [1] [0] [0] [1] [] []
  dot_S65536x7_S7x7_S65536x7_1_0_0_1_n_n_wf : DotDims.WF S65536x7 S7x7 S65536x7 [1] [0] [0] [1] [] []
  dot_S65536x7_S7x27_S65536x27_1_0_0_1_n_n_wf : DotDims.WF S65536x7 S7x27 S65536x27 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S65536x27.size a ≤ S1048576x27.size a
  hwx0_0 : ∀ i : grid0.Coords, EltTy.bits .f32 = 32 ∨ (Rect.block (s := S1048576x27) S65536x27.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S27x7.size a ≤ S27x7.size a
  hwx0_1 : ∀ i : grid0.Coords, EltTy.bits .f32 = 32 ∨ (Rect.block (s := S27x7) S27x7.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x27.size a ≤ S8x27.size a
  hwx0_2 : ∀ i : grid0.Coords, EltTy.bits .f32 = 32 ∨ (Rect.block (s := S8x27) S8x27.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8.size a ≤ S8.size a
  hwx0_3 : ∀ i : grid0.Coords, EltTy.bits .f32 = 32 ∨ (Rect.block (s := S8) S8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x8.size a ≤ S8x8.size a
  hwx0_4 : ∀ i : grid0.Coords, EltTy.bits .f32 = 32 ∨ (Rect.block (s := S8x8) S8x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8.size a ≤ S8.size a
  hwx0_5 : ∀ i : grid0.Coords, EltTy.bits .f32 = 32 ∨ (Rect.block (s := S8) S8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x8.size a ≤ S8x8.size a
  hwx0_6 : ∀ i : grid0.Coords, EltTy.bits .f32 = 32 ∨ (Rect.block (s := S8x8) S8x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8.size a ≤ S8.size a
  hwx0_7 : ∀ i : grid0.Coords, EltTy.bits .f32 = 32 ∨ (Rect.block (s := S8) S8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S7x8.size a ≤ S7x8.size a
  hwx0_8 : ∀ i : grid0.Coords, EltTy.bits .f32 = 32 ∨ (Rect.block (s := S7x8) S7x8.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S7.size a ≤ S7.size a
  hwx0_9 : ∀ i : grid0.Coords, EltTy.bits .f32 = 32 ∨ (Rect.block (s := S7) S7.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S7x7.size a ≤ S7x7.size a
  hwx0_10 : ∀ i : grid0.Coords, EltTy.bits .f32 = 32 ∨ (Rect.block (s := S7x7) S7x7.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S7.size a ≤ S7.size a
  hwx0_11 : ∀ i : grid0.Coords, EltTy.bits .f32 = 32 ∨ (Rect.block (s := S7) S7.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S65536x27.size a ≤ S1048576x27.size a
  hwx0_12 : ∀ i : grid0.Coords, EltTy.bits .f32 = 32 ∨ (Rect.block (s := S1048576x27) S65536x27.size (cc0_transform_12 i) (hinb0_12 i)).WholeWords (EltTy.packing .f32)

variable [Facts₀]

def dot_S65536x27_S27x8_S65536x8_1_0_0_1_n_n : DotDims S65536x27 S27x8 S65536x8 where
  lhsContracting := [1]
  rhsContracting := [0]
  lhsNonContracting := [0]
  rhsNonContracting := [1]
  lhsBatch := []
  rhsBatch := []
  wf := dot_S65536x27_S27x8_S65536x8_1_0_0_1_n_n_wf
def dot_S65536x8_S8x8_S65536x8_1_0_0_1_n_n : DotDims S65536x8 S8x8 S65536x8 where
  lhsContracting := [1]
  rhsContracting := [0]
  lhsNonContracting := [0]
  rhsNonContracting := [1]
  lhsBatch := []
  rhsBatch := []
  wf := dot_S65536x8_S8x8_S65536x8_1_0_0_1_n_n_wf
def dot_S65536x8_S8x7_S65536x7_1_0_0_1_n_n : DotDims S65536x8 S8x7 S65536x7 where
  lhsContracting := [1]
  rhsContracting := [0]
  lhsNonContracting := [0]
  rhsNonContracting := [1]
  lhsBatch := []
  rhsBatch := []
  wf := dot_S65536x8_S8x7_S65536x7_1_0_0_1_n_n_wf
def dot_S65536x7_S7x7_S65536x7_1_0_0_1_n_n : DotDims S65536x7 S7x7 S65536x7 where
  lhsContracting := [1]
  rhsContracting := [0]
  lhsNonContracting := [0]
  rhsNonContracting := [1]
  lhsBatch := []
  rhsBatch := []
  wf := dot_S65536x7_S7x7_S65536x7_1_0_0_1_n_n_wf
def dot_S65536x7_S7x27_S65536x27_1_0_0_1_n_n : DotDims S65536x7 S7x27 S65536x27 where
  lhsContracting := [1]
  rhsContracting := [0]
  lhsNonContracting := [0]
  rhsNonContracting := [1]
  lhsBatch := []
  rhsBatch := []
  wf := dot_S65536x7_S7x27_S65536x27_1_0_0_1_n_n_wf

abbrev win0_0 : Pipeline.Window sig grid0 :=
  Pipeline.Window.ofSpec (Memref.whole main_v0) S65536x27.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S27x7.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x27.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S8x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S7x8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S7.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S7x7.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S7.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v1) S65536x27.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S256x4096x27 : Shape := ⟨3, ![256, 4096, 27]⟩
abbrev S27x7 : Shape := ⟨2, ![27, 7]⟩
abbrev S8x27 : Shape := ⟨2, ![8, 27]⟩
abbrev S8 : Shape := ⟨1, ![8]⟩
abbrev S8x8 : Shape := ⟨2, ![8, 8]⟩
abbrev S7x8 : Shape := ⟨2, ![7, 8]⟩
abbrev S7 : Shape := ⟨1, ![7]⟩
abbrev S7x7 : Shape := ⟨2, ![7, 7]⟩
abbrev S256x4096x8 : Shape := ⟨3, ![256, 4096, 8]⟩
abbrev S1x1x8 : Shape := ⟨3, ![1, 1, 8]⟩
abbrev S256x4096x7 : Shape := ⟨3, ![256, 4096, 7]⟩
abbrev S1x1x7 : Shape := ⟨3, ![1, 1, 7]⟩

abbrev nBuf : Space → Nat
  | .hbm => 37
  | .vmem => 0
  | .smem => 0
  | _ => 0

abbrev bufTy : (tb : Table) → Fin (tcTables nBuf tb) → BufTy
  | .hbm, ⟨0, _⟩ => ⟨S256x4096x27, .f32⟩
  | .hbm, ⟨1, _⟩ => ⟨S27x7, .f32⟩
  | .hbm, ⟨2, _⟩ => ⟨S8x27, .f32⟩
  | .hbm, ⟨3, _⟩ => ⟨S8, .f32⟩
  | .hbm, ⟨4, _⟩ => ⟨S8x8, .f32⟩
  | .hbm, ⟨5, _⟩ => ⟨S8, .f32⟩
  | .hbm, ⟨6, _⟩ => ⟨S8x8, .f32⟩
  | .hbm, ⟨7, _⟩ => ⟨S8, .f32⟩
  | .hbm, ⟨8, _⟩ => ⟨S7x8, .f32⟩
  | .hbm, ⟨9, _⟩ => ⟨S7, .f32⟩
  | .hbm, ⟨10, _⟩ => ⟨S7x7, .f32⟩
  | .hbm, ⟨11, _⟩ => ⟨S7, .f32⟩
  | .hbm, ⟨12, _⟩ => ⟨S256x4096x8, .f32⟩
  | .hbm, ⟨13, _⟩ => ⟨S1x1x8, .f32⟩
  | .hbm, ⟨14, _⟩ => ⟨S256x4096x8, .f32⟩
  | .hbm, ⟨15, _⟩ => ⟨S256x4096x8, .f32⟩
  | .hbm, ⟨16, _⟩ => ⟨S256x4096x8, .f32⟩
  | .hbm, ⟨17, _⟩ => ⟨S256x4096x8, .f32⟩
  | .hbm, ⟨18, _⟩ => ⟨S1x1x8, .f32⟩
  | .hbm, ⟨19, _⟩ => ⟨S256x4096x8, .f32⟩
  | .hbm, ⟨20, _⟩ => ⟨S256x4096x8, .f32⟩
  | .hbm, ⟨21, _⟩ => ⟨S256x4096x8, .f32⟩
  | .hbm, ⟨22, _⟩ => ⟨S256x4096x8, .f32⟩
  | .hbm, ⟨23, _⟩ => ⟨S1x1x8, .f32⟩
  | .hbm, ⟨24, _⟩ => ⟨S256x4096x8, .f32⟩
  | .hbm, ⟨25, _⟩ => ⟨S256x4096x8, .f32⟩
  | .hbm, ⟨26, _⟩ => ⟨S256x4096x8, .f32⟩
  | .hbm, ⟨27, _⟩ => ⟨S256x4096x7, .f32⟩
  | .hbm, ⟨28, _⟩ => ⟨S1x1x7, .f32⟩
  | .hbm, ⟨29, _⟩ => ⟨S256x4096x7, .f32⟩
  | .hbm, ⟨30, _⟩ => ⟨S256x4096x7, .f32⟩
  | .hbm, ⟨31, _⟩ => ⟨S256x4096x7, .f32⟩
  | .hbm, ⟨32, _⟩ => ⟨S256x4096x7, .f32⟩
  | .hbm, ⟨33, _⟩ => ⟨S1x1x7, .f32⟩
  | .hbm, ⟨34, _⟩ => ⟨S256x4096x7, .f32⟩
  | .hbm, ⟨35, _⟩ => ⟨S256x4096x7, .f32⟩
  | .hbm, ⟨36, _⟩ => ⟨S256x4096x27, .f32⟩
  | _, _ => ⟨S256x4096x27, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  bcast_S8_S1x1x8_2 : S8.BroadcastsInDim S1x1x8 (![2] : Fin 1 → Fin S1x1x8.rank)
  bcast_S1x1x8_S256x4096x8_0_1_2 : S1x1x8.BroadcastsInDim S256x4096x8 (![0, 1, 2] : Fin 3 → Fin S256x4096x8.rank)
  bcast_S7_S1x1x7_2 : S7.BroadcastsInDim S1x1x7 (![2] : Fin 1 → Fin S1x1x7.rank)
  bcast_S1x1x7_S256x4096x7_0_1_2 : S1x1x7.BroadcastsInDim S256x4096x7 (![0, 1, 2] : Fin 3 → Fin S256x4096x7.rank)
  dot_S256x4096x27_S8x27_S256x4096x8_2_1_01_0_n_n_wf : DotDims.WF S256x4096x27 S8x27 S256x4096x8 [2] [1] [0, 1] [0] [] []
  dot_S256x4096x8_S8x8_S256x4096x8_2_1_01_0_n_n_wf : DotDims.WF S256x4096x8 S8x8 S256x4096x8 [2] [1] [0, 1] [0] [] []
  dot_S256x4096x8_S7x8_S256x4096x7_2_1_01_0_n_n_wf : DotDims.WF S256x4096x8 S7x8 S256x4096x7 [2] [1] [0, 1] [0] [] []
  dot_S256x4096x7_S7x7_S256x4096x7_2_1_01_0_n_n_wf : DotDims.WF S256x4096x7 S7x7 S256x4096x7 [2] [1] [0, 1] [0] [] []
  dot_S256x4096x7_S27x7_S256x4096x27_2_1_01_0_n_n_wf : DotDims.WF S256x4096x7 S27x7 S256x4096x27 [2] [1] [0, 1] [0] [] []

variable [Facts₀]

def dot_S256x4096x27_S8x27_S256x4096x8_2_1_01_0_n_n : DotDims S256x4096x27 S8x27 S256x4096x8 where
  lhsContracting := [2]
  rhsContracting := [1]
  lhsNonContracting := [0, 1]
  rhsNonContracting := [0]
  lhsBatch := []
  rhsBatch := []
  wf := dot_S256x4096x27_S8x27_S256x4096x8_2_1_01_0_n_n_wf
def dot_S256x4096x8_S8x8_S256x4096x8_2_1_01_0_n_n : DotDims S256x4096x8 S8x8 S256x4096x8 where
  lhsContracting := [2]
  rhsContracting := [1]
  lhsNonContracting := [0, 1]
  rhsNonContracting := [0]
  lhsBatch := []
  rhsBatch := []
  wf := dot_S256x4096x8_S8x8_S256x4096x8_2_1_01_0_n_n_wf
def dot_S256x4096x8_S7x8_S256x4096x7_2_1_01_0_n_n : DotDims S256x4096x8 S7x8 S256x4096x7 where
  lhsContracting := [2]
  rhsContracting := [1]
  lhsNonContracting := [0, 1]
  rhsNonContracting := [0]
  lhsBatch := []
  rhsBatch := []
  wf := dot_S256x4096x8_S7x8_S256x4096x7_2_1_01_0_n_n_wf
def dot_S256x4096x7_S7x7_S256x4096x7_2_1_01_0_n_n : DotDims S256x4096x7 S7x7 S256x4096x7 where
  lhsContracting := [2]
  rhsContracting := [1]
  lhsNonContracting := [0, 1]
  rhsNonContracting := [0]
  lhsBatch := []
  rhsBatch := []
  wf := dot_S256x4096x7_S7x7_S256x4096x7_2_1_01_0_n_n_wf
def dot_S256x4096x7_S27x7_S256x4096x27_2_1_01_0_n_n : DotDims S256x4096x7 S27x7 S256x4096x27 where
  lhsContracting := [2]
  rhsContracting := [1]
  lhsNonContracting := [0, 1]
  rhsNonContracting := [0]
  lhsBatch := []
  rhsBatch := []
  wf := dot_S256x4096x7_S27x7_S256x4096x27_2_1_01_0_n_n_wf

class Facts : Prop extends Facts₀ where

variable [Facts]
-- ==== Proof.LibDenseRows.lean ====
/-
  Dense layers read one row at a time, over the extended reals.

  A row `h` of length `K` meets a weight matrix `W` of shape `[N, K]` as `lin W h = (∑ₖ hₖ · Wₙₖ)ₙ`, the product
  with the TRANSPOSE of `W`; `affine` adds a bias, `layer` applies `tanh` to that.

  The lemmas say that the vector operations a kernel spells such a layer with act on each row by these maps:
  a matrix product `x · wᵀ` into a zero accumulator (`matmulT_row`: row `r` of the product is `lin w (row r of x)`,
  since entry `(r, n)` is `0 + ∑ₖ x(r, k) · wᵀ(k, n)` and `wᵀ(k, n) = w(n, k)`), a bias vector laid out as one row and
  repeated down the rows (`bias_row`: every row is the bias), and the entrywise sum and `tanh`.
  The matrix product is stated for any two-axis dot record whose operand indices are the plain ones — the left
  operand at `(r, k)`, the right at `(k, n)` — given as four hypotheses, so that it applies to each printed record.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibDenseRows

open Idealize.ShloMosaic Idealize.ShloMosaic.ValueIdx

/-- A `[N, K]` array as a matrix of its coordinates. -/
abbrev mat {N K : ℕ} (w : (⟨2, ![N, K]⟩ : Shape).Idx → EReal) : Fin N → Fin K → EReal := fun n k => w (ix2 n k)

/-- An `[N]` array as a function of its coordinate. -/
abbrev vec {N : ℕ} (b : (⟨1, ![N]⟩ : Shape).Idx → EReal) : Fin N → EReal := fun n => b (ix1 n)

/-- Row `r` of a matrix. -/
def row2 {R K : ℕ} (x : (⟨2, ![R, K]⟩ : Shape).Idx → EReal) (r : Fin R) : Fin K → EReal := fun k => x (ix2 r k)

/-- The row of a three-axis array at its first two coordinates. -/
def row3 {A B K : ℕ} (x : (⟨3, ![A, B, K]⟩ : Shape).Idx → EReal) (p : Fin A) (s : Fin B) : Fin K → EReal :=
  fun k => x (ix3 p s k)

/-- A row times the transpose of `W`: entry `n` is `∑ₖ hₖ · Wₙₖ`. -/
def lin {K N : ℕ} (W : Fin N → Fin K → EReal) (h : Fin K → EReal) : Fin N → EReal := fun n => ∑ k : Fin K, h k * W n k

/-- The same plus the bias. -/
def affine {K N : ℕ} (W : Fin N → Fin K → EReal) (b : Fin N → EReal) (h : Fin K → EReal) : Fin N → EReal :=
  fun n => lin W h n + b n

/-- One hidden layer: `tanh` of the affine map, entry by entry (`tanh` extended by its limits `∓1` at `∓∞`). -/
def layer {K N : ℕ} (W : Fin N → Fin K → EReal) (b : Fin N → EReal) (h : Fin K → EReal) : Fin N → EReal :=
  fun n => Ideal.tanh (affine W b h n)

/-- Two matrices with the same rows are equal. -/
theorem ext_row2 {R K : ℕ} {x y : (⟨2, ![R, K]⟩ : Shape).Idx → EReal} (h : ∀ r, row2 x r = row2 y r) : x = y := by
  funext j
  rw [eq_ix2 j]
  exact congrFun (h (j 0)) (j 1)

/-- Row `r` of `x · wᵀ` accumulated into zero is `lin w` of row `r` of `x`. The dot record `d` is any whose
    contraction has one axis of extent `K` and whose operand indices at output `(r, n)` and contraction position `k`
    are `(r, k)` on the left and `(k, n)` on the right. -/
theorem matmulT_row {R K N : ℕ} (d : DotDims ⟨2, ![R, K]⟩ ⟨2, ![K, N]⟩ ⟨2, ![R, N]⟩)
    (hrank : d.contr.rank = 1) (hsize : d.contr.size ⟨0, by omega⟩ = K)
    (hl0 : ∀ (j : (⟨2, ![R, N]⟩ : Shape).Idx) (q : d.contr.Idx), (d.lhsIdx j q 0).val = (j 0).val)
    (hl1 : ∀ (j : (⟨2, ![R, N]⟩ : Shape).Idx) (q : d.contr.Idx), (d.lhsIdx j q 1).val = (q ⟨0, by omega⟩).val)
    (hr0 : ∀ (j : (⟨2, ![R, N]⟩ : Shape).Idx) (q : d.contr.Idx), (d.rhsIdx j q 0).val = (q ⟨0, by omega⟩).val)
    (hr1 : ∀ (j : (⟨2, ![R, N]⟩ : Shape).Idx) (q : d.contr.Idx), (d.rhsIdx j q 1).val = (j 1).val)
    (x : FVec Ideal ⟨2, ![R, K]⟩ .f32) (w : FVec Ideal ⟨2, ![N, K]⟩ .f32)
    (ht : (⟨2, ![N, K]⟩ : Shape).Transposes [1, 0] ⟨2, ![K, N]⟩) (r : Fin R) :
    row2 (matmul d none x (transpose ⟨2, ![K, N]⟩ [1, 0] w ht) (constant (F := Ideal) ⟨2, ![R, N]⟩ .f32 0x00000000#32)) r
      = lin (mat w) (row2 x r) := by
  funext n
  show FloatOps.matmul d none x (transpose ⟨2, ![K, N]⟩ [1, 0] w ht) (constant (F := Ideal) ⟨2, ![R, N]⟩ .f32 0x00000000#32) (ix2 r n)
    = ∑ k : Fin K, x (ix2 r k) * w (ix2 n k)
  rw [Ideal.matmul_constant_zero_apply, ← Equiv.sum_comp (contrEquiv1 d K hrank hsize).symm]
  refine Finset.sum_congr rfl fun k _ => ?_
  have hk := contrEquiv1_symm_val d K hrank hsize k
  have el : d.lhsIdx (ix2 r n) ((contrEquiv1 d K hrank hsize).symm k) = ix2 r k := funext fun a => Fin.ext (by
    match a with
    | ⟨0, _⟩ => exact hl0 _ _
    | ⟨1, _⟩ => exact (hl1 _ _).trans hk)
  have er : d.rhsIdx (ix2 r n) ((contrEquiv1 d K hrank hsize).symm k) = ix2 k n := funext fun a => Fin.ext (by
    match a with
    | ⟨0, _⟩ => exact (hr0 _ _).trans hk
    | ⟨1, _⟩ => exact hr1 _ _)
  rw [el, er, transpose_ix2_apply]

/-- A bias vector cast to one row `[1, N]` and repeated down `R` rows: every row is the bias. -/
theorem bias_row {R N : ℕ} (b : FVec Ideal ⟨1, ![N]⟩ .f32) (hc : (⟨1, ![N]⟩ : Shape).ShapeCasts ⟨2, ![1, N]⟩)
    (hb : (⟨2, ![1, N]⟩ : Shape).Broadcasts ⟨2, ![R, N]⟩) (r : Fin R) :
    row2 (broadcastTo ⟨2, ![R, N]⟩ (shapeCast ⟨2, ![1, N]⟩ b hc) hb) r = vec b := by
  funext n
  show broadcastTo ⟨2, ![R, N]⟩ (shapeCast ⟨2, ![1, N]⟩ b hc) hb (ix2 r n) = b (ix1 n)
  rw [broadcastTo_1b_ab_apply, shapeCast_a_1a_apply]

/-- The entrywise sum acts row by row. -/
theorem addf_row {R N : ℕ} (a b : FVec Ideal ⟨2, ![R, N]⟩ .f32) (r : Fin R) :
    row2 (addf a b) r = fun n => row2 a r n + row2 b r n := rfl

/-- The entrywise `tanh` acts row by row. -/
theorem tanh_row {R N : ℕ} (a : FVec Ideal ⟨2, ![R, N]⟩ .f32) (r : Fin R) :
    row2 (tanh a) r = fun n => Ideal.tanh (row2 a r n) := rfl

/-- A product with a transposed weight plus a repeated bias is `affine` on each row. -/
theorem affine_row {R K N : ℕ} (W : Fin N → Fin K → EReal) (b : Fin N → EReal) (h : Fin K → EReal)
    (a c : FVec Ideal ⟨2, ![R, N]⟩ .f32) (r : Fin R) (ha : row2 a r = lin W h) (hc : row2 c r = b) :
    row2 (addf a c) r = affine W b h := by
  rw [addf_row, ha, hc]; rfl

/-- And with `tanh` on top, `layer`. -/
theorem layer_row {R K N : ℕ} (W : Fin N → Fin K → EReal) (b : Fin N → EReal) (h : Fin K → EReal)
    (a c : FVec Ideal ⟨2, ![R, N]⟩ .f32) (r : Fin R) (ha : row2 a r = lin W h) (hc : row2 c r = b) :
    row2 (tanh (addf a c)) r = layer W b h := by
  rw [tanh_row, affine_row W b h a c r ha hc]; rfl

end Cert.LibDenseRows

end
-- ==== Proof.Spec.lean ====
/-
  The network both programs compute, one row at a time.

  A row `h` of length `K` meets a weight matrix `W` of shape `[N, K]` and a bias `b` of length `N` as
  `h ↦ (∑ₖ hₖ · Wₙₖ + bₙ)ₙ` — a product with the TRANSPOSE of `W`. Four such maps, each followed by `tanh`, take a
  row of 27 entries through widths 8, 8, 8, 7; a fifth, without `tanh`, gives 7 scores; and the scores meet the
  transpose of `S` (shape `[27, 7]`) to give a row of 27 entries again. Everything is over the extended reals, where
  a finite sum is independent of the order of its terms, so the value is fixed by these formulas alone.

  Arrays are read through rows: `row2 x r` is row `r` of a matrix, `row3 x p s` the row of a three-axis array at
  its first two coordinates `(p, s)`; the row maps `lin`, `affine`, `layer` are the dense-rows module's.
-/
import proofs.«169361_j81896436400511_1_alg».proof.Proof.LibDenseRows

noncomputable section

namespace Cert.Mlp

open Idealize.ShloMosaic Idealize.ShloMosaic.ValueIdx Cert.LibDenseRows

/-- The weight arrays, in the order the programs take them. -/
structure Weights where
  S : (⟨2, ![27, 7]⟩ : Shape).Idx → EReal
  W1 : (⟨2, ![8, 27]⟩ : Shape).Idx → EReal
  b1 : (⟨1, ![8]⟩ : Shape).Idx → EReal
  W2 : (⟨2, ![8, 8]⟩ : Shape).Idx → EReal
  b2 : (⟨1, ![8]⟩ : Shape).Idx → EReal
  W3 : (⟨2, ![8, 8]⟩ : Shape).Idx → EReal
  b3 : (⟨1, ![8]⟩ : Shape).Idx → EReal
  W4 : (⟨2, ![7, 8]⟩ : Shape).Idx → EReal
  b4 : (⟨1, ![7]⟩ : Shape).Idx → EReal
  W5 : (⟨2, ![7, 7]⟩ : Shape).Idx → EReal
  b5 : (⟨1, ![7]⟩ : Shape).Idx → EReal

/-- The first hidden layer's output on a row, and the next three. -/
def hid1 (θ : Weights) (x : Fin 27 → EReal) : Fin 8 → EReal := layer (mat θ.W1) (vec θ.b1) x
def hid2 (θ : Weights) (x : Fin 27 → EReal) : Fin 8 → EReal := layer (mat θ.W2) (vec θ.b2) (hid1 θ x)
def hid3 (θ : Weights) (x : Fin 27 → EReal) : Fin 8 → EReal := layer (mat θ.W3) (vec θ.b3) (hid2 θ x)
def hid4 (θ : Weights) (x : Fin 27 → EReal) : Fin 7 → EReal := layer (mat θ.W4) (vec θ.b4) (hid3 θ x)

/-- The seven scores of a row: the last affine map, no `tanh`. -/
def scores (θ : Weights) (x : Fin 27 → EReal) : Fin 7 → EReal := affine (mat θ.W5) (vec θ.b5) (hid4 θ x)

/-- The network on a row: the scores times the transpose of `S`. -/
def net (θ : Weights) (x : Fin 27 → EReal) : Fin 27 → EReal := lin (mat θ.S) (scores θ x)

/-- The result array: at `(p, s, q)`, entry `q` of the network applied to the row of `x` at `(p, s)`. -/
def G (θ : Weights) (x : (⟨3, ![256, 4096, 27]⟩ : Shape).Idx → EReal) : (⟨3, ![256, 4096, 27]⟩ : Shape).Idx → EReal :=
  fun i => net θ (row3 x (i 0) (i 1)) (i 2)

theorem G_apply (θ : Weights) (x : (⟨3, ![256, 4096, 27]⟩ : Shape).Idx → EReal) (p : Fin 256) (s : Fin 4096) (q : Fin 27) :
    G θ x (ix3 p s q) = net θ (row3 x p s) q := rfl

/-- The same on the flattened array `[256 · 4096, 27]`: at `(r, q)`, entry `q` of the network on row `r`. -/
def Gflat (θ : Weights) (x : (⟨2, ![1048576, 27]⟩ : Shape).Idx → EReal) : (⟨2, ![1048576, 27]⟩ : Shape).Idx → EReal :=
  fun i => net θ (row2 x (i 0)) (i 1)

theorem Gflat_apply (θ : Weights) (x : (⟨2, ![1048576, 27]⟩ : Shape).Idx → EReal) (r : Fin 1048576) (q : Fin 27) :
    Gflat θ x (ix2 r q) = net θ (row2 x r) q := rfl

end Cert.Mlp

end
-- ==== Proof.KernelRows.lean ====
/-
  What the kernel's body stores, read one row at a time.

  The body takes a block of 65536 rows of 27 entries and the eleven weight arrays, whole. Each hidden layer is a
  matrix product with the transposed weight into a zero accumulator, plus the bias repeated down the rows, then
  `tanh`; the scores are the fifth such map without `tanh`; the stored block is the scores times the transpose of
  `S`. Every one of these acts on a row independently of the other rows, so row `r` of the stored block is the
  network applied to row `r` of the input block: `stored_row`.
-/
import proofs.«169361_j81896436400511_1_alg».proof.Proof.Gen.KernelIdeal.Skeleton
import proofs.«169361_j81896436400511_1_alg».proof.Proof.Spec

noncomputable section

namespace Cert.KernelIdeal.Rows

open Idealize.ShloMosaic Idealize.ShloMosaic.ValueIdx Cert.KernelIdeal Cert.KernelIdeal.Gen Cert.LibDenseRows Cert.Mlp

/-! ## The five matrix products -/

/-- Row `r` of the first layer's product, 27 → 8: the printed record's operand indices are the plain ones. -/
theorem mm1_row (x : FVec Ideal S65536x27 .f32) (w : FVec Ideal S8x27 .f32) (r : Fin 65536) :
    row2 (matmul dot_S65536x27_S27x8_S65536x8_1_0_0_1_n_n none x (transpose S27x8 [1, 0] w transposes_S8x27_p1_0_S27x8) (constant (F := Ideal) S65536x8 .f32 0x00000000#32)) r
      = lin (mat w) (row2 x r) :=
  matmulT_row dot_S65536x27_S27x8_S65536x8_1_0_0_1_n_n rfl rfl
  (fun j q => by
    unfold DotDims.lhsIdx
    rw [dif_neg (show ¬(0 : Fin S65536x27.rank) ∈ dot_S65536x27_S27x8_S65536x8_1_0_0_1_n_n.lhsBatch by decide), dif_pos (show (0 : Fin S65536x27.rank) ∈ dot_S65536x27_S27x8_S65536x8_1_0_0_1_n_n.lhsNonContracting by decide)]
    rfl)
  (fun j q => dot_S65536x27_S27x8_S65536x8_1_0_0_1_n_n.lhsIdx_val_of_single rfl j q)
  (fun j q => dot_S65536x27_S27x8_S65536x8_1_0_0_1_n_n.rhsIdx_val_of_single rfl j q)
  (fun j q => by
    unfold DotDims.rhsIdx
    rw [dif_neg (show ¬(1 : Fin S27x8.rank) ∈ dot_S65536x27_S27x8_S65536x8_1_0_0_1_n_n.rhsBatch by decide), dif_pos (show (1 : Fin S27x8.rank) ∈ dot_S65536x27_S27x8_S65536x8_1_0_0_1_n_n.rhsNonContracting by decide)]
    rfl)
  x w transposes_S8x27_p1_0_S27x8 r

/-- Row `r` of the second and third layers' product, 8 → 8: the printed record's operand indices are the plain ones. -/
theorem mm2_row (x : FVec Ideal S65536x8 .f32) (w : FVec Ideal S8x8 .f32) (r : Fin 65536) :
    row2 (matmul dot_S65536x8_S8x8_S65536x8_1_0_0_1_n_n none x (transpose S8x8 [1, 0] w transposes_S8x8_p1_0_S8x8) (constant (F := Ideal) S65536x8 .f32 0x00000000#32)) r
      = lin (mat w) (row2 x r) :=
  matmulT_row dot_S65536x8_S8x8_S65536x8_1_0_0_1_n_n rfl rfl
  (fun j q => by
    unfold DotDims.lhsIdx
    rw [dif_neg (show ¬(0 : Fin S65536x8.rank) ∈ dot_S65536x8_S8x8_S65536x8_1_0_0_1_n_n.lhsBatch by decide), dif_pos (show (0 : Fin S65536x8.rank) ∈ dot_S65536x8_S8x8_S65536x8_1_0_0_1_n_n.lhsNonContracting by decide)]
    rfl)
  (fun j q => dot_S65536x8_S8x8_S65536x8_1_0_0_1_n_n.lhsIdx_val_of_single rfl j q)
  (fun j q => dot_S65536x8_S8x8_S65536x8_1_0_0_1_n_n.rhsIdx_val_of_single rfl j q)
  (fun j q => by
    unfold DotDims.rhsIdx
    rw [dif_neg (show ¬(1 : Fin S8x8.rank) ∈ dot_S65536x8_S8x8_S65536x8_1_0_0_1_n_n.rhsBatch by decide), dif_pos (show (1 : Fin S8x8.rank) ∈ dot_S65536x8_S8x8_S65536x8_1_0_0_1_n_n.rhsNonContracting by decide)]
    rfl)
  x w transposes_S8x8_p1_0_S8x8 r

/-- Row `r` of the fourth layer's product, 8 → 7: the printed record's operand indices are the plain ones. -/
theorem mm4_row (x : FVec Ideal S65536x8 .f32) (w : FVec Ideal S7x8 .f32) (r : Fin 65536) :
    row2 (matmul dot_S65536x8_S8x7_S65536x7_1_0_0_1_n_n none x (transpose S8x7 [1, 0] w transposes_S7x8_p1_0_S8x7) (constant (F := Ideal) S65536x7 .f32 0x00000000#32)) r
      = lin (mat w) (row2 x r) :=
  matmulT_row dot_S65536x8_S8x7_S65536x7_1_0_0_1_n_n rfl rfl
  (fun j q => by
    unfold DotDims.lhsIdx
    rw [dif_neg (show ¬(0 : Fin S65536x8.rank) ∈ dot_S65536x8_S8x7_S65536x7_1_0_0_1_n_n.lhsBatch by decide), dif_pos (show (0 : Fin S65536x8.rank) ∈ dot_S65536x8_S8x7_S65536x7_1_0_0_1_n_n.lhsNonContracting by decide)]
    rfl)
  (fun j q => dot_S65536x8_S8x7_S65536x7_1_0_0_1_n_n.lhsIdx_val_of_single rfl j q)
  (fun j q => dot_S65536x8_S8x7_S65536x7_1_0_0_1_n_n.rhsIdx_val_of_single rfl j q)
  (fun j q => by
    unfold DotDims.rhsIdx
    rw [dif_neg (show ¬(1 : Fin S8x7.rank) ∈ dot_S65536x8_S8x7_S65536x7_1_0_0_1_n_n.rhsBatch by decide), dif_pos (show (1 : Fin S8x7.rank) ∈ dot_S65536x8_S8x7_S65536x7_1_0_0_1_n_n.rhsNonContracting by decide)]
    rfl)
  x w transposes_S7x8_p1_0_S8x7 r

/-- Row `r` of the scores' product, 7 → 7: the printed record's operand indices are the plain ones. -/
theorem mm5_row (x : FVec Ideal S65536x7 .f32) (w : FVec Ideal S7x7 .f32) (r : Fin 65536) :
    row2 (matmul dot_S65536x7_S7x7_S65536x7_1_0_0_1_n_n none x (transpose S7x7 [1, 0] w transposes_S7x7_p1_0_S7x7) (constant (F := Ideal) S65536x7 .f32 0x00000000#32)) r
      = lin (mat w) (row2 x r) :=
  matmulT_row dot_S65536x7_S7x7_S65536x7_1_0_0_1_n_n rfl rfl
  (fun j q => by
    unfold DotDims.lhsIdx
    rw [dif_neg (show ¬(0 : Fin S65536x7.rank) ∈ dot_S65536x7_S7x7_S65536x7_1_0_0_1_n_n.lhsBatch by decide), dif_pos (show (0 : Fin S65536x7.rank) ∈ dot_S65536x7_S7x7_S65536x7_1_0_0_1_n_n.lhsNonContracting by decide)]
    rfl)
  (fun j q => dot_S65536x7_S7x7_S65536x7_1_0_0_1_n_n.lhsIdx_val_of_single rfl j q)
  (fun j q => dot_S65536x7_S7x7_S65536x7_1_0_0_1_n_n.rhsIdx_val_of_single rfl j q)
  (fun j q => by
    unfold DotDims.rhsIdx
    rw [dif_neg (show ¬(1 : Fin S7x7.rank) ∈ dot_S65536x7_S7x7_S65536x7_1_0_0_1_n_n.rhsBatch by decide), dif_pos (show (1 : Fin S7x7.rank) ∈ dot_S65536x7_S7x7_S65536x7_1_0_0_1_n_n.rhsNonContracting by decide)]
    rfl)
  x w transposes_S7x7_p1_0_S7x7 r

/-- Row `r` of the final product with the transpose of `S`, 7 → 27: the printed record's operand indices are the plain ones. -/
theorem mm6_row (x : FVec Ideal S65536x7 .f32) (w : FVec Ideal S27x7 .f32) (r : Fin 65536) :
    row2 (matmul dot_S65536x7_S7x27_S65536x27_1_0_0_1_n_n none x (transpose S7x27 [1, 0] w transposes_S27x7_p1_0_S7x27) (constant (F := Ideal) S65536x27 .f32 0x00000000#32)) r
      = lin (mat w) (row2 x r) :=
  matmulT_row dot_S65536x7_S7x27_S65536x27_1_0_0_1_n_n rfl rfl
  (fun j q => by
    unfold DotDims.lhsIdx
    rw [dif_neg (show ¬(0 : Fin S65536x7.rank) ∈ dot_S65536x7_S7x27_S65536x27_1_0_0_1_n_n.lhsBatch by decide), dif_pos (show (0 : Fin S65536x7.rank) ∈ dot_S65536x7_S7x27_S65536x27_1_0_0_1_n_n.lhsNonContracting by decide)]
    rfl)
  (fun j q => dot_S65536x7_S7x27_S65536x27_1_0_0_1_n_n.lhsIdx_val_of_single rfl j q)
  (fun j q => dot_S65536x7_S7x27_S65536x27_1_0_0_1_n_n.rhsIdx_val_of_single rfl j q)
  (fun j q => by
    unfold DotDims.rhsIdx
    rw [dif_neg (show ¬(1 : Fin S7x27.rank) ∈ dot_S65536x7_S7x27_S65536x27_1_0_0_1_n_n.rhsBatch by decide), dif_pos (show (1 : Fin S7x27.rank) ∈ dot_S65536x7_S7x27_S65536x27_1_0_0_1_n_n.rhsNonContracting by decide)]
    rfl)
  x w transposes_S27x7_p1_0_S7x27 r

/-! ## The layers as the body spells them -/

/-- The first hidden layer on the whole block. -/
def kh1 (x0 : FVec Ideal S65536x27 .f32) (w1 : FVec Ideal S8x27 .f32) (b1 : FVec Ideal S8 .f32) : FVec Ideal S65536x8 .f32 :=
  tanh (addf (matmul dot_S65536x27_S27x8_S65536x8_1_0_0_1_n_n none (shapeCast S65536x27 x0 shapeCasts_S65536x27_S65536x27)
      (transpose S27x8 [1, 0] w1 transposes_S8x27_p1_0_S27x8) (constant S65536x8 .f32 0x00000000#32))
    (broadcastTo S65536x8 (shapeCast S1x8 b1 shapeCasts_S8_S1x8) broadcasts_S1x8_S65536x8))

/-- The second and third hidden layers, 8 → 8. -/
def kh2 (h : FVec Ideal S65536x8 .f32) (w : FVec Ideal S8x8 .f32) (b : FVec Ideal S8 .f32) : FVec Ideal S65536x8 .f32 :=
  tanh (addf (matmul dot_S65536x8_S8x8_S65536x8_1_0_0_1_n_n none h
      (transpose S8x8 [1, 0] w transposes_S8x8_p1_0_S8x8) (constant S65536x8 .f32 0x00000000#32))
    (broadcastTo S65536x8 (shapeCast S1x8 b shapeCasts_S8_S1x8) broadcasts_S1x8_S65536x8))

/-- The fourth hidden layer, 8 → 7. -/
def kh4 (h : FVec Ideal S65536x8 .f32) (w : FVec Ideal S7x8 .f32) (b : FVec Ideal S7 .f32) : FVec Ideal S65536x7 .f32 :=
  tanh (addf (matmul dot_S65536x8_S8x7_S65536x7_1_0_0_1_n_n none h
      (transpose S8x7 [1, 0] w transposes_S7x8_p1_0_S8x7) (constant S65536x7 .f32 0x00000000#32))
    (broadcastTo S65536x7 (shapeCast S1x7 b shapeCasts_S7_S1x7) broadcasts_S1x7_S65536x7))

/-- The scores, 7 → 7, no `tanh`. -/
def ksc (h : FVec Ideal S65536x7 .f32) (w : FVec Ideal S7x7 .f32) (b : FVec Ideal S7 .f32) : FVec Ideal S65536x7 .f32 :=
  addf (matmul dot_S65536x7_S7x7_S65536x7_1_0_0_1_n_n none h
      (transpose S7x7 [1, 0] w transposes_S7x7_p1_0_S7x7) (constant S65536x7 .f32 0x00000000#32))
    (broadcastTo S65536x7 (shapeCast S1x7 b shapeCasts_S7_S1x7) broadcasts_S1x7_S65536x7)

/-- The stored block: the scores times the transpose of `S`. -/
def kout (sc : FVec Ideal S65536x7 .f32) (s : FVec Ideal S27x7 .f32) : FVec Ideal S65536x27 .f32 :=
  matmul dot_S65536x7_S7x27_S65536x27_1_0_0_1_n_n none sc
    (transpose S7x27 [1, 0] s transposes_S27x7_p1_0_S7x27) (constant S65536x27 .f32 0x00000000#32)

/-- The body's two payloads are these, composed. -/
theorem pay_eq (x0 : FVec Ideal S65536x27 .f32) (s : FVec Ideal S27x7 .f32) (w1 : FVec Ideal S8x27 .f32) (b1 : FVec Ideal S8 .f32)
    (w2 : FVec Ideal S8x8 .f32) (b2 : FVec Ideal S8 .f32) (w3 : FVec Ideal S8x8 .f32) (b3 : FVec Ideal S8 .f32)
    (w4 : FVec Ideal S7x8 .f32) (b4 : FVec Ideal S7 .f32) (w5 : FVec Ideal S7x7 .f32) (b5 : FVec Ideal S7 .f32) :
    k0_pay1 (F := Ideal) (k0_pay2 (F := Ideal) x0 w1 b1 w2 b2 w3 b3 w4 b4 w5) b5 s
      = kout (ksc (kh4 (kh2 (kh2 (kh1 x0 w1 b1) w2 b2) w3 b3) w4 b4) w5 b5) s := rfl

theorem kh1_row (x0 : FVec Ideal S65536x27 .f32) (w1 : FVec Ideal S8x27 .f32) (b1 : FVec Ideal S8 .f32) (r : Fin 65536) :
    row2 (kh1 x0 w1 b1) r = layer (mat w1) (vec b1) (row2 x0 r) :=
  layer_row _ _ _ _ _ r (by rw [mm1_row, shapeCast_self]) (bias_row b1 shapeCasts_S8_S1x8 broadcasts_S1x8_S65536x8 r)

theorem kh2_row (h : FVec Ideal S65536x8 .f32) (w : FVec Ideal S8x8 .f32) (b : FVec Ideal S8 .f32) (r : Fin 65536) :
    row2 (kh2 h w b) r = layer (mat w) (vec b) (row2 h r) :=
  layer_row _ _ _ _ _ r (mm2_row h w r) (bias_row b shapeCasts_S8_S1x8 broadcasts_S1x8_S65536x8 r)

theorem kh4_row (h : FVec Ideal S65536x8 .f32) (w : FVec Ideal S7x8 .f32) (b : FVec Ideal S7 .f32) (r : Fin 65536) :
    row2 (kh4 h w b) r = layer (mat w) (vec b) (row2 h r) :=
  layer_row _ _ _ _ _ r (mm4_row h w r) (bias_row b shapeCasts_S7_S1x7 broadcasts_S1x7_S65536x7 r)

theorem ksc_row (h : FVec Ideal S65536x7 .f32) (w : FVec Ideal S7x7 .f32) (b : FVec Ideal S7 .f32) (r : Fin 65536) :
    row2 (ksc h w b) r = affine (mat w) (vec b) (row2 h r) :=
  affine_row _ _ _ _ _ r (mm5_row h w r) (bias_row b shapeCasts_S7_S1x7 broadcasts_S1x7_S65536x7 r)

theorem kout_row (sc : FVec Ideal S65536x7 .f32) (s : FVec Ideal S27x7 .f32) (r : Fin 65536) :
    row2 (kout sc s) r = lin (mat s) (row2 sc r) := mm6_row sc s r

/-- Row `r` of what the body stores is the network on row `r` of the input block. -/
theorem stored_row (x0 : FVec Ideal S65536x27 .f32) (s : FVec Ideal S27x7 .f32) (w1 : FVec Ideal S8x27 .f32) (b1 : FVec Ideal S8 .f32)
    (w2 : FVec Ideal S8x8 .f32) (b2 : FVec Ideal S8 .f32) (w3 : FVec Ideal S8x8 .f32) (b3 : FVec Ideal S8 .f32)
    (w4 : FVec Ideal S7x8 .f32) (b4 : FVec Ideal S7 .f32) (w5 : FVec Ideal S7x7 .f32) (b5 : FVec Ideal S7 .f32) (r : Fin 65536) :
    row2 (k0_pay1 (F := Ideal) (k0_pay2 (F := Ideal) x0 w1 b1 w2 b2 w3 b3 w4 b4 w5) b5 s) r
      = net ⟨s, w1, b1, w2, b2, w3, b3, w4, b4, w5, b5⟩ (row2 x0 r) := by
  rw [pay_eq, kout_row, ksc_row, kh4_row, kh2_row, kh2_row, kh1_row]
  rfl

end Cert.KernelIdeal.Rows

end
-- ==== Proof.LibLayout.lean ====
/-
  Layout operations read at coordinates, for shapes the library's own collection does not cover:
  a vector turned into a column, a column repeated along its unit axis, and the two reshapes between a
  three-axis array and the two-axis array whose rows are the pairs of its first two coordinates.
  Each lemma names the operand's index by coordinates, so that it applies by unification.
-/
import Idealize.ShloMosaic.Lib.Pipeline.Value
import Idealize.ShloMosaic.Lib.ValueIdx

namespace Cert.LibLayout

open Idealize.ShloMosaic Idealize.ShloMosaic.ValueIdx

variable {α : Type}

/-- A vector of length `a` cast to a column `[a, 1]` reads, at `(i, u)`, the vector at `i`: the row-major
    position of `(i, u)` is `i · 1 + u = i`, the unit coordinate being zero. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An array `[a, b, c]` reshaped to `[n, c]` with `n = a · b` reads, at row `r = p · b + q` and column `z`,
    the array at `(p, q, z)`: both have the row-major position `(p · b + q) · c + z`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (z : Fin c) (r : Fin n)
    (hr : r.val = p.val * b + q.val) : shapeCast ⟨2, ![n, c]⟩ x h (ix2 r z) = x (ix3 p q z) :=
  shapeCast_apply x h _ _ (by
    rw [Shape.rowMajor_val_three, Shape.rowMajor_val_two]
    show (p.val * b + q.val) * c + z.val = r.val * c + z.val
    rw [hr])

/-- The reshape back: `[n, c]` reshaped to `[a, b, c]` reads, at `(p, q, z)`, row `r = p · b + q` at column `z`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (z : Fin c) (r : Fin n)
    (hr : r.val = p.val * b + q.val) : shapeCast ⟨3, ![a, b, c]⟩ x h (ix3 p q z) = x (ix2 r z) :=
  shapeCast_apply x h _ _ (by
    rw [Shape.rowMajor_val_two, Shape.rowMajor_val_three]
    show r.val * c + z.val = (p.val * b + q.val) * c + z.val
    rw [hr])

end Cert.LibLayout
-- ==== Proof.KernelValue.lean ====
/-
  From the blocks the grid points write back to the whole result array, and through the reshape that follows.

  The grid has 16 points; point `t` takes rows `65536·t … 65536·t + 65535` of the flattened input `[1048576, 27]`
  and every weight array whole, and writes back the same rows of the output. By the row reading of the body, row `p`
  of the block written at point `t` is the network on row `65536·t + p` of the flattened input; the sixteen blocks
  tile the output, so the output array ends as the network applied to every row of the flattened input. The
  flattened input is the argument `[256, 4096, 27]` reshaped, row `4096·p + s` being the row at `(p, s)`, and the
  result is the output reshaped back: at `(p, s, q)` it is entry `q` of the network on the argument's row at `(p, s)`.
-/
import proofs.«169361_j81896436400511_1_alg».proof.Proof.Gen.KernelIdeal.Frame
import proofs.«169361_j81896436400511_1_alg».proof.Proof.KernelRows
import proofs.«169361_j81896436400511_1_alg».proof.Proof.LibLayout
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Rows Cert.LibDenseRows Cert.Mlp

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The weight arrays in core `c`'s launch memory. -/
def θ (c : Dev nD) : Weights where
  S := m ((c.tc : Thread nD τ).loc main_arg1)
  W1 := m ((c.tc : Thread nD τ).loc main_arg2)
  b1 := m ((c.tc : Thread nD τ).loc main_arg3)
  W2 := m ((c.tc : Thread nD τ).loc main_arg4)
  b2 := m ((c.tc : Thread nD τ).loc main_arg5)
  W3 := m ((c.tc : Thread nD τ).loc main_arg6)
  b3 := m ((c.tc : Thread nD τ).loc main_arg7)
  W4 := m ((c.tc : Thread nD τ).loc main_arg8)
  b4 := m ((c.tc : Thread nD τ).loc main_arg9)
  W5 := m ((c.tc : Thread nD τ).loc main_arg10)
  b5 := m ((c.tc : Thread nD τ).loc main_arg11)

/-! ## The weight windows: every point's block is the whole array -/

theorem idx_w1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

theorem wblk_1 (c : Dev nD) (t : Fin cfg0.N) : (iblk m c 1 t : FVec Ideal S27x7 .f32) = m ((c.tc : Thread nD τ).loc main_arg1) := by
  refine Eq.trans ?_ (V_main_arg1 m c)
  funext j
  obtain ⟨n, k, rfl⟩ : ∃ (n : Fin 27) (k : Fin 7), j = ix2 n k := ⟨j 0, j 1, eq_ix2 j⟩
  show V m c main_arg1 (((cfg0.win 1).blk t).view.emb (ix2 n k)) = V m c main_arg1 (ix2 n k)
  have h : ((cfg0.win 1).blk t).view.emb (ix2 n k) = ix2 n k := by
    funext a; apply Fin.ext
    match a with
    | ⟨0, _⟩ => show win0_1.index t (0 : Fin 2) * 27 + 1 * n.val = n.val; rw [(idx_w1 t).1]; omega
    | ⟨1, _⟩ => show win0_1.index t (1 : Fin 2) * 7 + 1 * k.val = k.val; rw [(idx_w1 t).2]; omega
  rw [h]

theorem idx_w2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem wblk_2 (c : Dev nD) (t : Fin cfg0.N) : (iblk m c 2 t : FVec Ideal S8x27 .f32) = m ((c.tc : Thread nD τ).loc main_arg2) := by
  refine Eq.trans ?_ (V_main_arg2 m c)
  funext j
  obtain ⟨n, k, rfl⟩ : ∃ (n : Fin 8) (k : Fin 27), j = ix2 n k := ⟨j 0, j 1, eq_ix2 j⟩
  show V m c main_arg2 (((cfg0.win 2).blk t).view.emb (ix2 n k)) = V m c main_arg2 (ix2 n k)
  have h : ((cfg0.win 2).blk t).view.emb (ix2 n k) = ix2 n k := by
    funext a; apply Fin.ext
    match a with
    | ⟨0, _⟩ => show win0_2.index t (0 : Fin 2) * 8 + 1 * n.val = n.val; rw [(idx_w2 t).1]; omega
    | ⟨1, _⟩ => show win0_2.index t (1 : Fin 2) * 27 + 1 * k.val = k.val; rw [(idx_w2 t).2]; omega
  rw [h]

theorem idx_w4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

theorem wblk_4 (c : Dev nD) (t : Fin cfg0.N) : (iblk m c 4 t : FVec Ideal S8x8 .f32) = m ((c.tc : Thread nD τ).loc main_arg4) := by
  refine Eq.trans ?_ (V_main_arg4 m c)
  funext j
  obtain ⟨n, k, rfl⟩ : ∃ (n : Fin 8) (k : Fin 8), j = ix2 n k := ⟨j 0, j 1, eq_ix2 j⟩
  show V m c main_arg4 (((cfg0.win 4).blk t).view.emb (ix2 n k)) = V m c main_arg4 (ix2 n k)
  have h : ((cfg0.win 4).blk t).view.emb (ix2 n k) = ix2 n k := by
    funext a; apply Fin.ext
    match a with
    | ⟨0, _⟩ => show win0_4.index t (0 : Fin 2) * 8 + 1 * n.val = n.val; rw [(idx_w4 t).1]; omega
    | ⟨1, _⟩ => show win0_4.index t (1 : Fin 2) * 8 + 1 * k.val = k.val; rw [(idx_w4 t).2]; omega
  rw [h]

theorem idx_w6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

theorem wblk_6 (c : Dev nD) (t : Fin cfg0.N) : (iblk m c 6 t : FVec Ideal S8x8 .f32) = m ((c.tc : Thread nD τ).loc main_arg6) := by
  refine Eq.trans ?_ (V_main_arg6 m c)
  funext j
  obtain ⟨n, k, rfl⟩ : ∃ (n : Fin 8) (k : Fin 8), j = ix2 n k := ⟨j 0, j 1, eq_ix2 j⟩
  show V m c main_arg6 (((cfg0.win 6).blk t).view.emb (ix2 n k)) = V m c main_arg6 (ix2 n k)
  have h : ((cfg0.win 6).blk t).view.emb (ix2 n k) = ix2 n k := by
    funext a; apply Fin.ext
    match a with
    | ⟨0, _⟩ => show win0_6.index t (0 : Fin 2) * 8 + 1 * n.val = n.val; rw [(idx_w6 t).1]; omega
    | ⟨1, _⟩ => show win0_6.index t (1 : Fin 2) * 8 + 1 * k.val = k.val; rw [(idx_w6 t).2]; omega
  rw [h]

theorem idx_w8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

theorem wblk_8 (c : Dev nD) (t : Fin cfg0.N) : (iblk m c 8 t : FVec Ideal S7x8 .f32) = m ((c.tc : Thread nD τ).loc main_arg8) := by
  refine Eq.trans ?_ (V_main_arg8 m c)
  funext j
  obtain ⟨n, k, rfl⟩ : ∃ (n : Fin 7) (k : Fin 8), j = ix2 n k := ⟨j 0, j 1, eq_ix2 j⟩
  show V m c main_arg8 (((cfg0.win 8).blk t).view.emb (ix2 n k)) = V m c main_arg8 (ix2 n k)
  have h : ((cfg0.win 8).blk t).view.emb (ix2 n k) = ix2 n k := by
    funext a; apply Fin.ext
    match a with
    | ⟨0, _⟩ => show win0_8.index t (0 : Fin 2) * 7 + 1 * n.val = n.val; rw [(idx_w8 t).1]; omega
    | ⟨1, _⟩ => show win0_8.index t (1 : Fin 2) * 8 + 1 * k.val = k.val; rw [(idx_w8 t).2]; omega
  rw [h]

theorem idx_w10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)

theorem wblk_10 (c : Dev nD) (t : Fin cfg0.N) : (iblk m c 10 t : FVec Ideal S7x7 .f32) = m ((c.tc : Thread nD τ).loc main_arg10) := by
  refine Eq.trans ?_ (V_main_arg10 m c)
  funext j
  obtain ⟨n, k, rfl⟩ : ∃ (n : Fin 7) (k : Fin 7), j = ix2 n k := ⟨j 0, j 1, eq_ix2 j⟩
  show V m c main_arg10 (((cfg0.win 10).blk t).view.emb (ix2 n k)) = V m c main_arg10 (ix2 n k)
  have h : ((cfg0.win 10).blk t).view.emb (ix2 n k) = ix2 n k := by
    funext a; apply Fin.ext
    match a with
    | ⟨0, _⟩ => show win0_10.index t (0 : Fin 2) * 7 + 1 * n.val = n.val; rw [(idx_w10 t).1]; omega
    | ⟨1, _⟩ => show win0_10.index t (1 : Fin 2) * 7 + 1 * k.val = k.val; rw [(idx_w10 t).2]; omega
  rw [h]

theorem idx_w3 : ∀ t : Fin cfg0.N, win0_3.index t (0 : Fin 1) = 0 :=
  (by decide +kernel : ∀ t : Fin grid0.N, win0_3.index t (0 : Fin 1) = 0)

theorem wblk_3 (c : Dev nD) (t : Fin cfg0.N) : (iblk m c 3 t : FVec Ideal S8 .f32) = m ((c.tc : Thread nD τ).loc main_arg3) := by
  refine Eq.trans ?_ (V_main_arg3 m c)
  funext j
  obtain ⟨n, rfl⟩ : ∃ (n : Fin 8), j = ix1 n := ⟨j 0, eq_ix1 j⟩
  show V m c main_arg3 (((cfg0.win 3).blk t).view.emb (ix1 n)) = V m c main_arg3 (ix1 n)
  have h : ((cfg0.win 3).blk t).view.emb (ix1 n) = ix1 n := by
    funext a; apply Fin.ext
    match a with
    | ⟨0, _⟩ => show win0_3.index t (0 : Fin 1) * 8 + 1 * n.val = n.val; rw [idx_w3 t]; omega
  rw [h]

theorem idx_w5 : ∀ t : Fin cfg0.N, win0_5.index t (0 : Fin 1) = 0 :=
  (by decide +kernel : ∀ t : Fin grid0.N, win0_5.index t (0 : Fin 1) = 0)

theorem wblk_5 (c : Dev nD) (t : Fin cfg0.N) : (iblk m c 5 t : FVec Ideal S8 .f32) = m ((c.tc : Thread nD τ).loc main_arg5) := by
  refine Eq.trans ?_ (V_main_arg5 m c)
  funext j
  obtain ⟨n, rfl⟩ : ∃ (n : Fin 8), j = ix1 n := ⟨j 0, eq_ix1 j⟩
  show V m c main_arg5 (((cfg0.win 5).blk t).view.emb (ix1 n)) = V m c main_arg5 (ix1 n)
  have h : ((cfg0.win 5).blk t).view.emb (ix1 n) = ix1 n := by
    funext a; apply Fin.ext
    match a with
    | ⟨0, _⟩ => show win0_5.index t (0 : Fin 1) * 8 + 1 * n.val = n.val; rw [idx_w5 t]; omega
  rw [h]

theorem idx_w7 : ∀ t : Fin cfg0.N, win0_7.index t (0 : Fin 1) = 0 :=
  (by decide +kernel : ∀ t : Fin grid0.N, win0_7.index t (0 : Fin 1) = 0)

theorem wblk_7 (c : Dev nD) (t : Fin cfg0.N) : (iblk m c 7 t : FVec Ideal S8 .f32) = m ((c.tc : Thread nD τ).loc main_arg7) := by
  refine Eq.trans ?_ (V_main_arg7 m c)
  funext j
  obtain ⟨n, rfl⟩ : ∃ (n : Fin 8), j = ix1 n := ⟨j 0, eq_ix1 j⟩
  show V m c main_arg7 (((cfg0.win 7).blk t).view.emb (ix1 n)) = V m c main_arg7 (ix1 n)
  have h : ((cfg0.win 7).blk t).view.emb (ix1 n) = ix1 n := by
    funext a; apply Fin.ext
    match a with
    | ⟨0, _⟩ => show win0_7.index t (0 : Fin 1) * 8 + 1 * n.val = n.val; rw [idx_w7 t]; omega
  rw [h]

theorem idx_w9 : ∀ t : Fin cfg0.N, win0_9.index t (0 : Fin 1) = 0 :=
  (by decide +kernel : ∀ t : Fin grid0.N, win0_9.index t (0 : Fin 1) = 0)

theorem wblk_9 (c : Dev nD) (t : Fin cfg0.N) : (iblk m c 9 t : FVec Ideal S7 .f32) = m ((c.tc : Thread nD τ).loc main_arg9) := by
  refine Eq.trans ?_ (V_main_arg9 m c)
  funext j
  obtain ⟨n, rfl⟩ : ∃ (n : Fin 7), j = ix1 n := ⟨j 0, eq_ix1 j⟩
  show V m c main_arg9 (((cfg0.win 9).blk t).view.emb (ix1 n)) = V m c main_arg9 (ix1 n)
  have h : ((cfg0.win 9).blk t).view.emb (ix1 n) = ix1 n := by
    funext a; apply Fin.ext
    match a with
    | ⟨0, _⟩ => show win0_9.index t (0 : Fin 1) * 7 + 1 * n.val = n.val; rw [idx_w9 t]; omega
  rw [h]

theorem idx_w11 : ∀ t : Fin cfg0.N, win0_11.index t (0 : Fin 1) = 0 :=
  (by decide +kernel : ∀ t : Fin grid0.N, win0_11.index t (0 : Fin 1) = 0)

theorem wblk_11 (c : Dev nD) (t : Fin cfg0.N) : (iblk m c 11 t : FVec Ideal S7 .f32) = m ((c.tc : Thread nD τ).loc main_arg11) := by
  refine Eq.trans ?_ (V_main_arg11 m c)
  funext j
  obtain ⟨n, rfl⟩ : ∃ (n : Fin 7), j = ix1 n := ⟨j 0, eq_ix1 j⟩
  show V m c main_arg11 (((cfg0.win 11).blk t).view.emb (ix1 n)) = V m c main_arg11 (ix1 n)
  have h : ((cfg0.win 11).blk t).view.emb (ix1 n) = ix1 n := by
    funext a; apply Fin.ext
    match a with
    | ⟨0, _⟩ => show win0_11.index t (0 : Fin 1) * 7 + 1 * n.val = n.val; rw [idx_w11 t]; omega
  rw [h]

/-! ## The input window: point `t`'s block is rows `65536·t …` of the flattened input -/

theorem idx_x : ∀ t : Fin cfg0.N, win0_0.index t (0 : Fin 2) = t.val ∧ win0_0.index t (1 : Fin 2) = 0
    ∧ win0_12.index t (0 : Fin 2) = t.val ∧ win0_12.index t (1 : Fin 2) = 0 :=
  (by decide +kernel : ∀ t : Fin grid0.N, win0_0.index t (0 : Fin 2) = t.val ∧ win0_0.index t (1 : Fin 2) = 0
    ∧ win0_12.index t (0 : Fin 2) = t.val ∧ win0_12.index t (1 : Fin 2) = 0)

/-- Row `65536·t + p` of a `1048576`-row array, for a grid point `t` and a row `p` of its block. -/
theorem rowAt_lt (t : Fin cfg0.N) (p : Fin 65536) : t.val * 65536 + p.val < 1048576 := by
  have ht := t.isLt
  have hN : cfg0.N = 16 := N_0
  have hp := p.isLt
  omega

def rowAt (t : Fin cfg0.N) (p : Fin 65536) : Fin 1048576 := ⟨t.val * 65536 + p.val, rowAt_lt t p⟩

theorem xblk_row (c : Dev nD) (t : Fin cfg0.N) (p : Fin 65536) :
    row2 (iblk m c 0 t : FVec Ideal S65536x27 .f32) p = row2 (V m c main_v0 : S1048576x27.Idx → EReal) (rowAt t p) := by
  funext k
  show V m c main_v0 (((cfg0.win 0).blk t).view.emb (ix2 p k)) = V m c main_v0 (ix2 (rowAt t p) k)
  have h : ((cfg0.win 0).blk t).view.emb (ix2 p k) = ix2 (rowAt t p) k := by
    funext a; apply Fin.ext
    match a with
    | ⟨0, _⟩ => show win0_0.index t (0 : Fin 2) * 65536 + 1 * p.val = t.val * 65536 + p.val; rw [(idx_x t).1]; omega
    | ⟨1, _⟩ => show win0_0.index t (1 : Fin 2) * 27 + 1 * k.val = k.val; rw [(idx_x t).2.1]; omega
  rw [h]

/-- The flattened input the region finds is the argument reshaped. -/
theorem V_flat (c : Dev nD) : (V m c main_v0 : S1048576x27.Idx → EReal)
    = shapeCast S1048576x27 (m ((c.tc : Thread nD τ).loc main_arg0) : S256x4096x27.Idx → EReal) shapeCasts_S256x4096x27_S1048576x27 := by
  show StableHlo.after hostOps0 (fun b => m (c, b)) (Proc.devRef .tc main_v0) = _
  after_results
  rfl

/-- Its row `4096·p + s` is the argument's row at `(p, s)`. -/
theorem V_flat_row (c : Dev nD) (p : Fin 256) (s : Fin 4096) (r : Fin 1048576) (hr : r.val = p.val * 4096 + s.val) :
    row2 (V m c main_v0 : S1048576x27.Idx → EReal) r = row3 (m ((c.tc : Thread nD τ).loc main_arg0) : S256x4096x27.Idx → EReal) p s := by
  funext k
  show (V m c main_v0 : S1048576x27.Idx → EReal) (ix2 r k) = _
  rw [V_flat]
  exact Cert.LibLayout.shapeCast_abc_nc_apply _ _ p s k r hr

/-! ## What point `t` writes back -/

/-- Point `t` writes back block `t` of `Gflat` of the flattened input: row `p` of the stored block is the network on
    row `p` of the input block, which is row `65536·t + p` of the flattened input — the row the output block's row `p`
    lands on. -/
theorem flushed_eq (c : Dev nD) (t : Fin cfg0.N) :
    (dats m 0 c).flushed 12 t = ((cfg0.win 12).blk t).view.read (Elt Ideal) (Gflat (θ m c) (V m c main_v0)) := by
  show (cfg0.win 12).cut (grid0.coords t) ((dats m 0 c).after 12 t) = _
  rw [after0_12]
  unfold out0_12
  rw [View.canon_unit_zero hz2]
  simp only [View.ld_unit_zero (S := S65536x27) hz2, View.ld_unit_zero (S := S8x27) hz2, View.ld_unit_zero (S := S8x8) hz2,
    View.ld_unit_zero (S := S7x8) hz2, View.ld_unit_zero (S := S7x7) hz2, View.ld_unit_zero (S := S27x7) hz2,
    View.ld_unit_zero (S := S8) hz1, View.ld_unit_zero (S := S7) hz1]
  rw [wblk_1, wblk_2, wblk_3, wblk_4, wblk_5, wblk_6, wblk_7, wblk_8, wblk_9, wblk_10, wblk_11]
  funext j
  obtain ⟨p, q, rfl⟩ : ∃ (p : Fin 65536) (q : Fin 27), j = ix2 p q := ⟨j 0, j 1, eq_ix2 j⟩
  have he : ((cfg0.win 12).blk t).view.emb (ix2 p q) = ix2 (rowAt t p) q := by
    funext a; apply Fin.ext
    match a with
    | ⟨0, _⟩ => show win0_12.index t (0 : Fin 2) * 65536 + 1 * p.val = t.val * 65536 + p.val; rw [(idx_x t).2.2.1]; omega
    | ⟨1, _⟩ => show win0_12.index t (1 : Fin 2) * 27 + 1 * q.val = q.val; rw [(idx_x t).2.2.2]; omega
  show row2 (k0_pay1 (F := Ideal) (k0_pay2 (F := Ideal) (iblk m c 0 t) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)))
        (m ((c.tc : Thread nD τ).loc main_arg11)) (m ((c.tc : Thread nD τ).loc main_arg1))) p q
    = Gflat (θ m c) (V m c main_v0) (((cfg0.win 12).blk t).view.emb (ix2 p q))
  rw [he, Gflat_apply, stored_row, xblk_row]
  rfl

/-! ## The sixteen blocks tile the output -/

/-- An index of the output is in point `t`'s block iff each coordinate is in the block's range on its axis. -/
theorem mem_blk (t : Fin cfg0.N) (i : S1048576x27.Idx) :
    i ∈ ((cfg0.win 12).blk t).view.set ↔ ∀ a : Fin 2, win0_12.index t a * S65536x27.size a ≤ (i a).val
      ∧ (i a).val < win0_12.index t a * S65536x27.size a + S65536x27.size a := by
  show i ∈ ((View.whole main_v1).slice (win0_12.rect t)).set ↔ _
  rw [View.set_slice_whole, Rect.mem_set_unit]
  exact Iff.rfl

/-- Row `r` of the output is in the block of point `⌊r / 65536⌋`. -/
theorem cover (i : S1048576x27.Idx) :
    ∃ t : Fin cfg0.N, (cfg0.win 12).flush t = true ∧ i ∈ ((cfg0.win 12).blk t).view.set := by
  have hi0 : (i 0).val < 1048576 := (i 0).isLt
  have hi1 : (i 1).val < 27 := (i 1).isLt
  have hN : cfg0.N = 16 := N_0
  have ht : (i 0).val / 65536 < cfg0.N := by rw [hN]; omega
  obtain ⟨-, -, e0, e1⟩ := idx_x ⟨(i 0).val / 65536, ht⟩
  refine ⟨⟨(i 0).val / 65536, ht⟩, flush0_12 _, ?_⟩
  rw [mem_blk]
  intro a
  match a with
  | ⟨0, _⟩ =>
    show win0_12.index ⟨(i 0).val / 65536, ht⟩ (0 : Fin 2) * 65536 ≤ (i 0).val
      ∧ (i 0).val < win0_12.index ⟨(i 0).val / 65536, ht⟩ (0 : Fin 2) * 65536 + 65536
    rw [e0]
    show (i 0).val / 65536 * 65536 ≤ (i 0).val ∧ (i 0).val < (i 0).val / 65536 * 65536 + 65536
    omega
  | ⟨1, _⟩ =>
    show win0_12.index ⟨(i 0).val / 65536, ht⟩ (1 : Fin 2) * 27 ≤ (i 1).val
      ∧ (i 1).val < win0_12.index ⟨(i 0).val / 65536, ht⟩ (1 : Fin 2) * 27 + 27
    rw [e1]
    omega

/-- So the output array ends as the network on every row of the flattened input. -/
theorem final_out (c : Dev nD) : (dats m 0 c).arrAt 12 cfg0.N = Gflat (θ m c) (V m c main_v0) :=
  (dats m 0 c).arrAt_eq_of_cover 12 (Gflat (θ m c) (V m c main_v0)) (fun t _ => flushed_eq m c t) cover

/-! ## The reshape after the region -/

theorem flatRow_lt (p : Fin 256) (s : Fin 4096) : p.val * 4096 + s.val < 1048576 := by
  have hp := p.isLt
  have hs := s.isLt
  omega

/-- The row of the flattened arrays that holds the row at `(p, s)`. -/
def flatRow (p : Fin 256) (s : Fin 4096) : Fin 1048576 := ⟨p.val * 4096 + s.val, flatRow_lt p s⟩

/-- The program's result, the output array reshaped to `[256, 4096, 27]`, is `G` of the launch memory's arrays:
    at `(p, s, q)` the reshape reads row `4096·p + s` of the output, the network on that row of the flattened input,
    which is the argument's row at `(p, s)`. -/
theorem tail_eq (c : Dev nD) :
    Pipeline.afterTail₀ cfgs (dats m) 0 (V0 m) [hostOps1] c main_v2
      = G (θ m c) (m ((c.tc : Thread nD τ).loc main_arg0) : S256x4096x27.Idx → EReal) := by
  unfold Pipeline.afterTail₀
  show StableHlo.after hostOps1 _ (Proc.devRef .tc main_v2) = _
  after_results
  have hw : (Pipeline.withArrays (cfgs 0).spec c (V0 m c) (fun w => (dats m 0 c).arrAt w (cfgs 0).N) (Proc.devRef .tc main_v1) : S1048576x27.Idx → EReal)
      = Gflat (θ m c) (V m c main_v0) :=
    (Pipeline.withArrays_arr spec0 launch0.win.arr_inj c _ _ 12).trans (final_out m c)
  funext i
  obtain ⟨p, s, q, rfl⟩ : ∃ (p : Fin 256) (s : Fin 4096) (q : Fin 27), i = ix3 p s q := ⟨i 0, i 1, i 2, eq_ix3 i⟩
  show shapeCast S256x4096x27 (Pipeline.withArrays (cfgs 0).spec c (V0 m c) (fun w => (dats m 0 c).arrAt w (cfgs 0).N) (Proc.devRef .tc main_v1) : S1048576x27.Idx → EReal)
      shapeCasts_S1048576x27_S256x4096x27 (ix3 p s q) = _
  rw [hw, G_apply, Cert.LibLayout.shapeCast_nc_abc_apply _ _ p s q (flatRow p s) rfl, Gflat_apply,
    V_flat_row m c p s (flatRow p s) rfl]

/-! ## The run, read -/

/-- Every weakly fair execution of the idealized kernel's program terminates with its result at `G` of the launch
    memory's arrays and every argument array unchanged. -/
theorem run : θ_run defs (onTc (τ := τ) (main (F := Ideal))) ⟨m, fun _ => 0, ρ⟩ (fun r => ∀ c : Dev nD,
      r.2.mem ((c.tc : Thread nD τ).loc main_v2) = G (θ m c) (m ((c.tc : Thread nD τ).loc main_arg0) : S256x4096x27.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c)))⟩) (run_main m ρ)

end Cert.KernelIdeal.Hand

end
-- ==== Proof.RefRows.lean ====
/-
  What the reference computes, read one row at a time.

  The reference works on the three-axis array `[256, 4096, 27]` directly: each `einsum` contracts the last axis with
  the rows of a weight, so at `(p, s)` it is the row map `lin` of the row at `(p, s)`; each bias is repeated over
  `(p, s)`. Stage by stage, the row of the result at `(p, s)` is the next row map of the row before, and the last
  stage is the network applied to the row of the input at `(p, s)`: `result_apply`.
-/
import proofs.«169361_j81896436400511_1_alg».proof.Proof.Gen.ReferenceIdeal.Read
import proofs.«169361_j81896436400511_1_alg».proof.Proof.Spec

noncomputable section

namespace Cert.ReferenceIdeal.Rows

open Idealize.ShloMosaic Idealize.ShloMosaic.ValueIdx Cert.ReferenceIdeal Cert.ReferenceIdeal.Read Cert.LibDenseRows Cert.Mlp

/-- The first hidden layer at `(p, s)`: the host's `dot_general` contracts the row with the rows of the weight, the bias is repeated
    over the first two axes, and the host's `tanh` is the kernel's at the exact values. -/
theorem hid1_row (x0 : FVec Ideal S256x4096x27 .f32) (x2 : FVec Ideal S8x27 .f32) (x3 : FVec Ideal S8 .f32) (p : Fin 256) (s : Fin 4096) :
    row3 (val_main_v4 (F := Ideal) x0 x2 x3) p s = layer (mat x2) (vec x3) (row3 x0 p s) := by
  funext n
  show val_main_v4 (F := Ideal) x0 x2 x3 (ix3 p s n) = Ideal.tanh ((∑ k : Fin 27, x0 (ix3 p s k) * x2 (ix2 n k)) + x3 (ix1 n))
  rw [val_main_v4_apply, val_main_v3_apply, val_main_v0_apply, val_main_v2_apply, val_main_v1_apply]
  have el : ∀ k, lidx_main_v0 (ix3 p s n) k = ix3 p s k := fun k => funext fun a => by
    match a with
    | ⟨0, _⟩ => rfl
    | ⟨1, _⟩ => rfl
    | ⟨2, _⟩ => rfl
  have er : ∀ k, ridx_main_v0 (ix3 p s n) k = ix2 n k := fun k => funext fun a => by
    match a with
    | ⟨0, _⟩ => rfl
    | ⟨1, _⟩ => rfl
  have eb : idx_main_v1 (idx_main_v2 (ix3 p s n)) = ix1 n := funext fun a => by
    match a with
    | ⟨0, _⟩ => rfl
  simp only [el, er, eb]
  rfl

/-- The second hidden layer at `(p, s)`: the host's `dot_general` contracts the row with the rows of the weight, the bias is repeated
    over the first two axes, and the host's `tanh` is the kernel's at the exact values. -/
theorem hid2_row (x0 : FVec Ideal S256x4096x27 .f32) (x2 : FVec Ideal S8x27 .f32) (x3 : FVec Ideal S8 .f32) (x4 : FVec Ideal S8x8 .f32) (x5 : FVec Ideal S8 .f32) (p : Fin 256) (s : Fin 4096) :
    row3 (val_main_v9 (F := Ideal) x0 x2 x3 x4 x5) p s = layer (mat x4) (vec x5) (row3 (val_main_v4 (F := Ideal) x0 x2 x3) p s) := by
  funext n
  show val_main_v9 (F := Ideal) x0 x2 x3 x4 x5 (ix3 p s n) = Ideal.tanh ((∑ k : Fin 8, (val_main_v4 (F := Ideal) x0 x2 x3) (ix3 p s k) * x4 (ix2 n k)) + x5 (ix1 n))
  rw [val_main_v9_apply, val_main_v8_apply, val_main_v5_apply, val_main_v7_apply, val_main_v6_apply]
  have el : ∀ k, lidx_main_v5 (ix3 p s n) k = ix3 p s k := fun k => funext fun a => by
    match a with
    | ⟨0, _⟩ => rfl
    | ⟨1, _⟩ => rfl
    | ⟨2, _⟩ => rfl
  have er : ∀ k, ridx_main_v5 (ix3 p s n) k = ix2 n k := fun k => funext fun a => by
    match a with
    | ⟨0, _⟩ => rfl
    | ⟨1, _⟩ => rfl
  have eb : idx_main_v6 (idx_main_v7 (ix3 p s n)) = ix1 n := funext fun a => by
    match a with
    | ⟨0, _⟩ => rfl
  simp only [el, er, eb]
  rfl

/-- The third hidden layer at `(p, s)`: the host's `dot_general` contracts the row with the rows of the weight, the bias is repeated
    over the first two axes, and the host's `tanh` is the kernel's at the exact values. -/
theorem hid3_row (x0 : FVec Ideal S256x4096x27 .f32) (x2 : FVec Ideal S8x27 .f32) (x3 : FVec Ideal S8 .f32) (x4 : FVec Ideal S8x8 .f32) (x5 : FVec Ideal S8 .f32) (x6 : FVec Ideal S8x8 .f32) (x7 : FVec Ideal S8 .f32) (p : Fin 256) (s : Fin 4096) :
    row3 (val_main_v14 (F := Ideal) x0 x2 x3 x4 x5 x6 x7) p s = layer (mat x6) (vec x7) (row3 (val_main_v9 (F := Ideal) x0 x2 x3 x4 x5) p s) := by
  funext n
  show val_main_v14 (F := Ideal) x0 x2 x3 x4 x5 x6 x7 (ix3 p s n) = Ideal.tanh ((∑ k : Fin 8, (val_main_v9 (F := Ideal) x0 x2 x3 x4 x5) (ix3 p s k) * x6 (ix2 n k)) + x7 (ix1 n))
  rw [val_main_v14_apply, val_main_v13_apply, val_main_v10_apply, val_main_v12_apply, val_main_v11_apply]
  have el : ∀ k, lidx_main_v10 (ix3 p s n) k = ix3 p s k := fun k => funext fun a => by
    match a with
    | ⟨0, _⟩ => rfl
    | ⟨1, _⟩ => rfl
    | ⟨2, _⟩ => rfl
  have er : ∀ k, ridx_main_v10 (ix3 p s n) k = ix2 n k := fun k => funext fun a => by
    match a with
    | ⟨0, _⟩ => rfl
    | ⟨1, _⟩ => rfl
  have eb : idx_main_v11 (idx_main_v12 (ix3 p s n)) = ix1 n := funext fun a => by
    match a with
    | ⟨0, _⟩ => rfl
  simp only [el, er, eb]
  rfl

/-- The fourth hidden layer at `(p, s)`: the host's `dot_general` contracts the row with the rows of the weight, the bias is repeated
    over the first two axes, and the host's `tanh` is the kernel's at the exact values. -/
theorem hid4_row (x0 : FVec Ideal S256x4096x27 .f32) (x2 : FVec Ideal S8x27 .f32) (x3 : FVec Ideal S8 .f32) (x4 : FVec Ideal S8x8 .f32) (x5 : FVec Ideal S8 .f32) (x6 : FVec Ideal S8x8 .f32) (x7 : FVec Ideal S8 .f32) (x8 : FVec Ideal S7x8 .f32) (x9 : FVec Ideal S7 .f32) (p : Fin 256) (s : Fin 4096) :
    row3 (val_main_v19 (F := Ideal) x0 x2 x3 x4 x5 x6 x7 x8 x9) p s = layer (mat x8) (vec x9) (row3 (val_main_v14 (F := Ideal) x0 x2 x3 x4 x5 x6 x7) p s) := by
  funext n
  show val_main_v19 (F := Ideal) x0 x2 x3 x4 x5 x6 x7 x8 x9 (ix3 p s n) = Ideal.tanh ((∑ k : Fin 8, (val_main_v14 (F := Ideal) x0 x2 x3 x4 x5 x6 x7) (ix3 p s k) * x8 (ix2 n k)) + x9 (ix1 n))
  rw [val_main_v19_apply, val_main_v18_apply, val_main_v15_apply, val_main_v17_apply, val_main_v16_apply]
  have el : ∀ k, lidx_main_v15 (ix3 p s n) k = ix3 p s k := fun k => funext fun a => by
    match a with
    | ⟨0, _⟩ => rfl
    | ⟨1, _⟩ => rfl
    | ⟨2, _⟩ => rfl
  have er : ∀ k, ridx_main_v15 (ix3 p s n) k = ix2 n k := fun k => funext fun a => by
    match a with
    | ⟨0, _⟩ => rfl
    | ⟨1, _⟩ => rfl
  have eb : idx_main_v16 (idx_main_v17 (ix3 p s n)) = ix1 n := funext fun a => by
    match a with
    | ⟨0, _⟩ => rfl
  simp only [el, er, eb]
  rfl

/-- The scores at `(p, s)`: the host's `dot_general` contracts the row with the rows of the weight, the bias is repeated
    over the first two axes. -/
theorem scores_row (x0 : FVec Ideal S256x4096x27 .f32) (x2 : FVec Ideal S8x27 .f32) (x3 : FVec Ideal S8 .f32) (x4 : FVec Ideal S8x8 .f32) (x5 : FVec Ideal S8 .f32) (x6 : FVec Ideal S8x8 .f32) (x7 : FVec Ideal S8 .f32) (x8 : FVec Ideal S7x8 .f32) (x9 : FVec Ideal S7 .f32) (x10 : FVec Ideal S7x7 .f32) (x11 : FVec Ideal S7 .f32) (p : Fin 256) (s : Fin 4096) :
    row3 (val_main_v23 (F := Ideal) x0 x2 x3 x4 x5 x6 x7 x8 x9 x10 x11) p s = affine (mat x10) (vec x11) (row3 (val_main_v19 (F := Ideal) x0 x2 x3 x4 x5 x6 x7 x8 x9) p s) := by
  funext n
  show val_main_v23 (F := Ideal) x0 x2 x3 x4 x5 x6 x7 x8 x9 x10 x11 (ix3 p s n) = (∑ k : Fin 7, (val_main_v19 (F := Ideal) x0 x2 x3 x4 x5 x6 x7 x8 x9) (ix3 p s k) * x10 (ix2 n k)) + x11 (ix1 n)
  rw [val_main_v23_apply, val_main_v20_apply, val_main_v22_apply, val_main_v21_apply]
  have el : ∀ k, lidx_main_v20 (ix3 p s n) k = ix3 p s k := fun k => funext fun a => by
    match a with
    | ⟨0, _⟩ => rfl
    | ⟨1, _⟩ => rfl
    | ⟨2, _⟩ => rfl
  have er : ∀ k, ridx_main_v20 (ix3 p s n) k = ix2 n k := fun k => funext fun a => by
    match a with
    | ⟨0, _⟩ => rfl
    | ⟨1, _⟩ => rfl
  have eb : idx_main_v21 (idx_main_v22 (ix3 p s n)) = ix1 n := funext fun a => by
    match a with
    | ⟨0, _⟩ => rfl
  simp only [el, er, eb]
  rfl

/-- The last stage: the scores at `(p, s)` times the transpose of `S`. -/
theorem out_row (x0 : FVec Ideal S256x4096x27 .f32) (x1 : FVec Ideal S27x7 .f32) (x2 : FVec Ideal S8x27 .f32) (x3 : FVec Ideal S8 .f32) (x4 : FVec Ideal S8x8 .f32) (x5 : FVec Ideal S8 .f32) (x6 : FVec Ideal S8x8 .f32) (x7 : FVec Ideal S8 .f32) (x8 : FVec Ideal S7x8 .f32) (x9 : FVec Ideal S7 .f32) (x10 : FVec Ideal S7x7 .f32) (x11 : FVec Ideal S7 .f32) (p : Fin 256) (s : Fin 4096) :
    row3 (val_main_v24 (F := Ideal) x0 x1 x2 x3 x4 x5 x6 x7 x8 x9 x10 x11) p s = lin (mat x1) (row3 (val_main_v23 (F := Ideal) x0 x2 x3 x4 x5 x6 x7 x8 x9 x10 x11) p s) := by
  funext q
  show val_main_v24 (F := Ideal) x0 x1 x2 x3 x4 x5 x6 x7 x8 x9 x10 x11 (ix3 p s q) = ∑ k : Fin 7, (val_main_v23 (F := Ideal) x0 x2 x3 x4 x5 x6 x7 x8 x9 x10 x11) (ix3 p s k) * x1 (ix2 q k)
  rw [val_main_v24_apply]
  have el : ∀ k, lidx_main_v24 (ix3 p s q) k = ix3 p s k := fun k => funext fun a => by
    match a with
    | ⟨0, _⟩ => rfl
    | ⟨1, _⟩ => rfl
    | ⟨2, _⟩ => rfl
  have er : ∀ k, ridx_main_v24 (ix3 p s q) k = ix2 q k := fun k => funext fun a => by
    match a with
    | ⟨0, _⟩ => rfl
    | ⟨1, _⟩ => rfl
  simp only [el, er]

/-- The reference's result is `G` of its arguments. -/
theorem result_eq (x0 : FVec Ideal S256x4096x27 .f32) (x1 : FVec Ideal S27x7 .f32) (x2 : FVec Ideal S8x27 .f32) (x3 : FVec Ideal S8 .f32) (x4 : FVec Ideal S8x8 .f32) (x5 : FVec Ideal S8 .f32) (x6 : FVec Ideal S8x8 .f32) (x7 : FVec Ideal S8 .f32) (x8 : FVec Ideal S7x8 .f32) (x9 : FVec Ideal S7 .f32) (x10 : FVec Ideal S7x7 .f32) (x11 : FVec Ideal S7 .f32) :
    val_main_v24 (F := Ideal) x0 x1 x2 x3 x4 x5 x6 x7 x8 x9 x10 x11 = G ⟨x1, x2, x3, x4, x5, x6, x7, x8, x9, x10, x11⟩ x0 := by
  funext i
  obtain ⟨p, s, q, rfl⟩ : ∃ (p : Fin 256) (s : Fin 4096) (q : Fin 27), i = ix3 p s q := ⟨i 0, i 1, i 2, eq_ix3 i⟩
  rw [G_apply]
  show row3 (val_main_v24 (F := Ideal) x0 x1 x2 x3 x4 x5 x6 x7 x8 x9 x10 x11) p s q = _
  rw [out_row, scores_row, hid4_row, hid3_row, hid2_row, hid1_row]
  rfl

end Cert.ReferenceIdeal.Rows

end
-- ==== Proof.lean ====
/-
  The five claims of the certificate, assembled.

  The kernel flattens the argument `[256, 4096, 27]` to `[1048576, 27]`, applies a five-layer network and a final
  product with the transpose of `S` to blocks of 65536 rows, and reshapes the output back; the reference applies the
  same six products to the three-axis array directly. Both results are `G`: at `(p, s, q)`, entry `q` of the network
  applied to the argument's row at `(p, s)`. The kernel's is `G` by the row reading of its body, the tiling of the
  output by the sixteen blocks, and the two reshapes; the reference's is `G` stage by stage. The two sides differ
  only by re-indexing — a transposed weight read at `(k, n)` is the weight at `(n, k)`, a zero accumulator adds
  nothing, row `4096·p + s` of the flattened array is the row at `(p, s)` — and every product keeps the order of its
  factors, so no law of arithmetic that could fail at an infinity is used and the precondition is never opened.
  The frames of the two kernel programs are the generated ones, the reference's is its generated run with the result
  dropped, and the idealization rewrote no operation, so the kernel's idealization claim is `True`.
-/
import proofs.«169361_j81896436400511_1_alg».proof.Defs
import proofs.«169361_j81896436400511_1_alg».proof.Proof.Gen.Kernel
import proofs.«169361_j81896436400511_1_alg».proof.Proof.Gen.Kernel.Frame
import proofs.«169361_j81896436400511_1_alg».proof.Proof.Gen.KernelIdeal
import proofs.«169361_j81896436400511_1_alg».proof.Proof.Gen.KernelIdeal.Frame
import proofs.«169361_j81896436400511_1_alg».proof.Proof.Gen.ReferenceIdeal
import proofs.«169361_j81896436400511_1_alg».proof.Proof.Gen.Pre_finite_inputs
import proofs.«169361_j81896436400511_1_alg».proof.Proof.Gen.ReferenceIdeal.Run
import proofs.«169361_j81896436400511_1_alg».proof.Proof.Gen.ReferenceIdeal.Read
import proofs.«169361_j81896436400511_1_alg».proof.Proof.KernelValue
import proofs.«169361_j81896436400511_1_alg».proof.Proof.RefRows

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the twelve arguments, the idealized kernel's result and the idealized reference's
    are the same array `G` of those arguments. -/
theorem algebraic : Cert.algebraic_KernelIdeal_ReferenceIdeal := by
  intro m ρ m' ρ' _ hagree
  refine ⟨fun c => Cert.Mlp.G (Cert.KernelIdeal.Hand.θ m c)
      (m ((c.tc : Thread Cert.KernelIdeal.nD Cert.KernelIdeal.τ).loc Cert.KernelIdeal.main_arg0)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  rw [Cert.ReferenceIdeal.Read.val_main_v24_eq, Cert.ReferenceIdeal.Rows.result_eq,
    e0, e1, e2, e3, e4, e5, e6, e7, e8, e9, e10, e11]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
